-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x128x32x32 : Shape := ⟨5, ![16, 4, 128, 32, 32]⟩
abbrev S1x1x128 : Shape := ⟨3, ![1, 1, 128]⟩
abbrev S32x128 : Shape := ⟨2, ![32, 128]⟩
abbrev S32 : Shape := ⟨1, ![32]⟩
abbrev S_ : Shape := ⟨0, ![]⟩

class Facts : Prop where
  bcast_S_S16x4x128x32x32 : S_.BroadcastsInDim S16x4x128x32x32 (![] : Fin 0 → Fin S16x4x128x32x32.rank)
  reducesTo_S16x4x128x32x32_S_d0_1_2_3_4 : S16x4x128x32x32.ReducesTo [0, 1, 2, 3, 4] S_
  h_S_ : 0 < S_.numel
  bcast_S_S1x1x128 : S_.BroadcastsInDim S1x1x128 (![] : Fin 0 → Fin S1x1x128.rank)
  reducesTo_S1x1x128_S_d0_1_2 : S1x1x128.ReducesTo [0, 1, 2] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32x128 .f32) (main_arg5 : FVec F S32 .f32) (main_v13 : IVec S_ 1) (main_v16 : IVec S1x1x128 1) : IVec S_ 1 :=
  let main_c_5 : IVec S_ 1 := constantI S_ 1 1#1
  let main_v17 : IVec S_ 1 := (fun x v => Host.reduce IntOp.andi x v reducesTo_S1x1x128_S_d0_1_2 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S16x4x128x32x32 .f32) (main_arg1 : FVec F S16x4x128x32x32 .f32) (main_arg2 : FVec F S1x1x128 .f32) (main_arg3 : FVec F S1x1x128 .f32) (main_arg4 : FVec F S32x128 .f32) (main_arg5 : FVec F S32 .f32) : IVec S_ 1 :=
  let main_v0 : FVec F S16x4x128x32x32 .f32 := Host.absf main_arg0
  let main_cst : FVec F S_ .f32 := constant S_ .f32 0x7F800000#32
  let main_v1 : FVec F S16x4x128x32x32 .f32 := broadcastInDim S16x4x128x32x32 ![] bcast_S_S16x4x128x32x32 main_cst
  let main_v2 : IVec S16x4x128x32x32 1 := cmpf .olt main_v0 main_v1
  let main_c : IVec S_ 1 := constantI S_ 1 1#1
  let main_v3 : IVec S_ 1 := (fun x v => Host.reduce IntOp.andi x v reducesTo_S16x4x128x32x32_S_d0_1_2_3_4 h_S_) main_v2 main_c
  let main_v4 : FVec F S16x4x128x32x32 .f32 := Host.absf main_arg1
  let main_cst_0 : FVec F S_ .f32 := constant S_ .f32 0x7F800000#32
  let main_v5 : FVec F S16x4x128x32x32 .f32 := broadcastInDim S16x4x128x32x32 ![] bcast_S_S16x4x128x32x32 main_cst_0
  let main_v6 : IVec S16x4x128x32x32 1 := cmpf .olt main_v4 main_v5
  let main_c_1 : IVec S_ 1 := constantI S_ 1 1#1
  let main_v7 : IVec S_ 1 := (fun x v => Host.reduce IntOp.andi x v reducesTo_S16x4x128x32x32_S_d0_1_2_3_4 h_S_) main_v6 main_c_1
  let main_v8 : IVec S_ 1 := andi main_v3 main_v7
  let main_v9 : FVec F S1x1x128 .f32 := Host.absf main_arg2
  let main_cst_2 : FVec F S_ .f32 := constant S_ .f32 0x7F800000#32
  let main_v10 : FVec F S1x1x128 .f32 := broadcastInDim S1x1x128 ![] bcast_S_S1x1x128 main_cst_2
  let main_v11 : IVec S1x1x128 1 := cmpf .olt main_v9 main_v10
  let main_c_3 : IVec S_ 1 := constantI S_ 1 1#1
  let main_v12 : IVec S_ 1 := (fun x v => Host.reduce IntOp.andi x v reducesTo_S1x1x128_S_d0_1_2 h_S_) main_v11 main_c_3
  let main_v13 : IVec S_ 1 := andi main_v8 main_v12
  let main_v14 : FVec F S1x1x128 .f32 := Host.absf main_arg3
  let main_cst_4 : FVec F S_ .f32 := constant S_ .f32 0x7F800000#32
  let main_v15 : FVec F S1x1x128 .f32 := broadcastInDim S1x1x128 ![] bcast_S_S1x1x128 main_cst_4
  let main_v16 : IVec S1x1x128 1 := cmpf .olt main_v14 main_v15
  fn_part1 (F := F) main_arg4 main_arg5 main_v13 main_v16
-- ==== Kernel.lean ====
abbrev S16x4x128x32x32 : Shape := ⟨5, ![16, 4, 128, 32, 32]⟩
abbrev S1x1x128 : Shape := ⟨3, ![1, 1, 128]⟩
abbrev S32x128 : Shape := ⟨2, ![32, 128]⟩
abbrev S32 : Shape := ⟨1, ![32]⟩
abbrev S64x128x1024 : Shape := ⟨3, ![64, 128, 1024]⟩
abbrev S1x128 : Shape := ⟨2, ![1, 128]⟩
abbrev S128x1 : Shape := ⟨2, ![128, 1]⟩
abbrev S1x32 : Shape := ⟨2, ![1, 32]⟩
abbrev S32x1 : Shape := ⟨2, ![32, 1]⟩
abbrev S1x128x1024 : Shape := ⟨3, ![1, 128, 1024]⟩
abbrev S128x1024 : Shape := ⟨2, ![128, 1024]⟩
abbrev S32x1024 : Shape := ⟨2, ![32, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩
abbrev S128 : Shape := ⟨1, ![128]⟩
abbrev S1 : Shape := ⟨1, ![1]⟩
abbrev S1x1 : Shape := ⟨2, ![1, 1]⟩
abbrev S64x128x32x32 : Shape := ⟨4, ![64, 128, 32, 32]⟩

abbrev nBuf : Space → Nat
  | .hbm => 16
  | .vmem => 10
  | .smem => 0
  | _ => 0

abbrev bufTy : (tb : Table) → Fin (tcTables nBuf tb) → BufTy
  | .hbm, ⟨0, _⟩ => ⟨S16x4x128x32x32, .f32⟩
  | .hbm, ⟨1, _⟩ => ⟨S16x4x128x32x32, .f32⟩
  | .hbm, ⟨2, _⟩ => ⟨S1x1x128, .f32⟩
  | .hbm, ⟨3, _⟩ => ⟨S1x1x128, .f32⟩
  | .hbm, ⟨4, _⟩ => ⟨S32x128, .f32⟩
  | .hbm, ⟨5, _⟩ => ⟨S32, .f32⟩
  | .hbm, ⟨6, _⟩ => ⟨S64x128x1024, .f32⟩
  | .hbm, ⟨7, _⟩ => ⟨S64x128x1024, .f32⟩
  | .hbm, ⟨8, _⟩ => ⟨S1x128, .f32⟩
  | .hbm, ⟨9, _⟩ => ⟨S128x1, .f32⟩
  | .hbm, ⟨10, _⟩ => ⟨S1x128, .f32⟩
  | .hbm, ⟨11, _⟩ => ⟨S128x1, .f32⟩
  | .hbm, ⟨12, _⟩ => ⟨S1x32, .f32⟩
  | .hbm, ⟨13, _⟩ => ⟨S32x1, .f32⟩
  | .hbm, ⟨14, _⟩ => ⟨S64x128x1024, .f32⟩
  | .hbm, ⟨15, _⟩ => ⟨S64x128x32x32, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1, .f32⟩
  | .local _ .vmem, ⟨5, _⟩ => ⟨S128x1, .f32⟩
  | .local _ .vmem, ⟨6, _⟩ => ⟨S32x128, .f32⟩
  | .local _ .vmem, ⟨7, _⟩ => ⟨S32x1, .f32⟩
  | .local _ .vmem, ⟨8, _⟩ => ⟨S1x128x1024, .f32⟩
  | .local _ .vmem, ⟨9, _⟩ => ⟨S1x128x1024, .f32⟩
  | _, _ => ⟨S16x4x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x4x128x32x32_S64x128x1024 : S16x4x128x32x32.ShapeCasts S64x128x1024
  shapeCasts_S1x1x128_S1x128 : S1x1x128.ShapeCasts S1x128
  transposes_S1x128_S128x1_1_0 : S1x128.Transposes [1, 0] S128x1
  shapeCasts_S32_S1x32 : S32.ShapeCasts S1x32
  transposes_S1x32_S32x1_1_0 : S1x32.Transposes [1, 0] S32x1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x1024 : S32x1.Broadcasts S32x1024
  reduces_S32x1024_S1024 : S32x1024.Reduces [0] S1024
  shapeCasts_S1024_S1x1024 : S1024.ShapeCasts S1x1024
  broadcasts_S1x1024_S32x1024 : S1x1024.Broadcasts S32x1024
  reduces_S1024x1024_S1024 : S1024x1024.Reduces [1] S1024
  shapeCasts_S1024_S1024x1 : S1024.ShapeCasts S1024x1
  broadcasts_S1024x1_S1024x1024 : S1024x1.Broadcasts S1024x1024
  reduces_S128x1024_S128 : S128x1024.Reduces [1] S128
  shapeCasts_S128_S128x1 : S128.ShapeCasts S128x1
  reduces_S128x1_S1 : S128x1.Reduces [0] S1
  shapeCasts_S1_S1x1 : S1.ShapeCasts S1x1
  broadcasts_S1x1_S128x1024 : S1x1.Broadcasts S128x1024
  shapeCasts_S128x1024_S1x128x1024 : S128x1024.ShapeCasts S1x128x1024
  shapeCasts_S64x128x1024_S64x128x32x32 : S64x128x1024.ShapeCasts S64x128x32x32
  dot_S32x128_S128x1024_S32x1024_1_0_0_1_n_n_wf : DotDims.WF S32x128 S128x1024 S32x1024 [1] [0] [0] [1] [] []
  dot_S32x1024_S32x1024_S1024x1024_0_0_1_1_n_n_wf : DotDims.WF S32x1024 S32x1024 S1024x1024 [0] [0] [1] [1] [] []
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S64x128x1024.size a
  hwx0_0 : ∀ i : grid0.Coords, EltTy.bits .f32 = 32 ∨ (Rect.block (s := S64x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S64x128x1024.size a
  hwx0_1 : ∀ i : grid0.Coords, EltTy.bits .f32 = 32 ∨ (Rect.block (s := S64x128x1024) S1x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1024.size a ≤ S64x128x1024.size a
  hwx0_6 : ∀ i : grid0.Coords, EltTy.bits .f32 = 32 ∨ (Rect.block (s := S64x128x1024) S1x128x1024.size (cc0_transform_6 i) (hinb0_6 i)).WholeWords (EltTy.packing .f32)

variable [Facts₀]

def dot_S32x128_S128x1024_S32x1024_1_0_0_1_n_n : DotDims S32x128 S128x1024 S32x1024 where
  lhsContracting := [1]
  rhsContracting := [0]
  lhsNonContracting := [0]
  rhsNonContracting := [1]
  lhsBatch := []
  rhsBatch := []
  wf := dot_S32x128_S128x1024_S32x1024_1_0_0_1_n_n_wf
def dot_S32x1024_S32x1024_S1024x1024_0_0_1_1_n_n : DotDims S32x1024 S32x1024 S1024x1024 where
  lhsContracting := [0]
  rhsContracting := [0]
  lhsNonContracting := [1]
  rhsNonContracting := [1]
  lhsBatch := []
  rhsBatch := []
  wf := dot_S32x1024_S32x1024_S1024x1024_0_0_1_1_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x4x128x32x32 : Shape := ⟨5, ![16, 4, 128, 32, 32]⟩
abbrev S1x1x128 : Shape := ⟨3, ![1, 1, 128]⟩
abbrev S32x128 : Shape := ⟨2, ![32, 128]⟩
abbrev S32 : Shape := ⟨1, ![32]⟩
abbrev S64x128x1024 : Shape := ⟨3, ![64, 128, 1024]⟩
abbrev S64x1024x128 : Shape := ⟨3, ![64, 1024, 128]⟩
abbrev S64x1024x32 : Shape := ⟨3, ![64, 1024, 32]⟩
abbrev S1x1x32 : Shape := ⟨3, ![1, 1, 32]⟩
abbrev S_ : Shape := ⟨0, ![]⟩
abbrev S64x1024 : Shape := ⟨2, ![64, 1024]⟩
abbrev S64x1024x1 : Shape := ⟨3, ![64, 1024, 1]⟩
abbrev S64x1024x1024 : Shape := ⟨3, ![64, 1024, 1024]⟩
abbrev S64x128x32x32 : Shape := ⟨4, ![64, 128, 32, 32]⟩
abbrev S64 : Shape := ⟨1, ![64]⟩
abbrev S64x1x1x1 : Shape := ⟨4, ![64, 1, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S16x4x128x32x32, .f32⟩
  | .hbm, ⟨1, _⟩ => ⟨S16x4x128x32x32, .f32⟩
  | .hbm, ⟨2, _⟩ => ⟨S1x1x128, .f32⟩
  | .hbm, ⟨3, _⟩ => ⟨S1x1x128, .f32⟩
  | .hbm, ⟨4, _⟩ => ⟨S32x128, .f32⟩
  | .hbm, ⟨5, _⟩ => ⟨S32, .f32⟩
  | .hbm, ⟨6, _⟩ => ⟨S64x128x1024, .f32⟩
  | .hbm, ⟨7, _⟩ => ⟨S64x1024x128, .f32⟩
  | .hbm, ⟨8, _⟩ => ⟨S64x1024x128, .f32⟩
  | .hbm, ⟨9, _⟩ => ⟨S64x1024x128, .f32⟩
  | .hbm, ⟨10, _⟩ => ⟨S64x128x1024, .f32⟩
  | .hbm, ⟨11, _⟩ => ⟨S64x1024x128, .f32⟩
  | .hbm, ⟨12, _⟩ => ⟨S64x1024x128, .f32⟩
  | .hbm, ⟨13, _⟩ => ⟨S64x1024x128, .f32⟩
  | .hbm, ⟨14, _⟩ => ⟨S64x1024x32, .f32⟩
  | .hbm, ⟨15, _⟩ => ⟨S1x1x32, .f32⟩
  | .hbm, ⟨16, _⟩ => ⟨S64x1024x32, .f32⟩
  | .hbm, ⟨17, _⟩ => ⟨S64x1024x32, .f32⟩
  | .hbm, ⟨18, _⟩ => ⟨S64x1024x32, .f32⟩
  | .hbm, ⟨19, _⟩ => ⟨S_, .f32⟩
  | .hbm, ⟨20, _⟩ => ⟨S64x1024, .f32⟩
  | .hbm, ⟨21, _⟩ => ⟨S64x1024x1, .f32⟩
  | .hbm, ⟨22, _⟩ => ⟨S64x1024x1, .f32⟩
  | .hbm, ⟨23, _⟩ => ⟨S_, .f32⟩
  | .hbm, ⟨24, _⟩ => ⟨S64x1024x1, .f32⟩
  | .hbm, ⟨25, _⟩ => ⟨S64x1024x1, .f32⟩
  | .hbm, ⟨26, _⟩ => ⟨S64x1024x32, .f32⟩
  | .hbm, ⟨27, _⟩ => ⟨S64x1024x32, .f32⟩
  | .hbm, ⟨28, _⟩ => ⟨S64x1024x32, .f32⟩
  | .hbm, ⟨29, _⟩ => ⟨S1x1x32, .f32⟩
  | .hbm, ⟨30, _⟩ => ⟨S64x1024x32, .f32⟩
  | .hbm, ⟨31, _⟩ => ⟨S64x1024x32, .f32⟩
  | .hbm, ⟨32, _⟩ => ⟨S64x1024x32, .f32⟩
  | .hbm, ⟨33, _⟩ => ⟨S_, .f32⟩
  | .hbm, ⟨34, _⟩ => ⟨S64x1024, .f32⟩
  | .hbm, ⟨35, _⟩ => ⟨S64x1024x1, .f32⟩
  | .hbm, ⟨36, _⟩ => ⟨S64x1024x1, .f32⟩
  | .hbm, ⟨37, _⟩ => ⟨S_, .f32⟩
  | .hbm, ⟨38, _⟩ => ⟨S64x1024x1, .f32⟩
  | .hbm, ⟨39, _⟩ => ⟨S64x1024x1, .f32⟩
  | .hbm, ⟨40, _⟩ => ⟨S64x1024x32, .f32⟩
  | .hbm, ⟨41, _⟩ => ⟨S64x1024x32, .f32⟩
  | .hbm, ⟨42, _⟩ => ⟨S64x1024x1024, .f32⟩
  | .hbm, ⟨43, _⟩ => ⟨S_, .f32⟩
  | .hbm, ⟨44, _⟩ => ⟨S64x1024x1024, .f32⟩
  | .hbm, ⟨45, _⟩ => ⟨S64x1024x1024, .f32⟩
  | .hbm, ⟨46, _⟩ => ⟨S_, .f32⟩
  | .hbm, ⟨47, _⟩ => ⟨S64x1024, .f32⟩
  | .hbm, ⟨48, _⟩ => ⟨S_, .f32⟩
  | .hbm, ⟨49, _⟩ => ⟨S64x1024, .f32⟩
  | .hbm, ⟨50, _⟩ => ⟨S64x1024, .f32⟩
  | .hbm, ⟨51, _⟩ => ⟨S64x1024x1, .f32⟩
  | .hbm, ⟨52, _⟩ => ⟨S64x1024x1024, .f32⟩
  | .hbm, ⟨53, _⟩ => ⟨S64x1024x1024, .f32⟩
  | .hbm, ⟨54, _⟩ => ⟨S64x1024x1024, .f32⟩
  | .hbm, ⟨55, _⟩ => ⟨S_, .f32⟩
  | .hbm, ⟨56, _⟩ => ⟨S64x1024, .f32⟩
  | .hbm, ⟨57, _⟩ => ⟨S64x1024x1, .f32⟩
  | .hbm, ⟨58, _⟩ => ⟨S64x1024x1024, .f32⟩
  | .hbm, ⟨59, _⟩ => ⟨S64x1024x1024, .f32⟩
  | .hbm, ⟨60, _⟩ => ⟨S64x1024x128, .f32⟩
  | .hbm, ⟨61, _⟩ => ⟨S64x1024x128, .f32⟩
  | .hbm, ⟨62, _⟩ => ⟨S64x128x1024, .f32⟩
  | .hbm, ⟨63, _⟩ => ⟨S64x128x32x32, .f32⟩
  | .hbm, ⟨64, _⟩ => ⟨S64x128x32x32, .f32⟩
  | .hbm, ⟨65, _⟩ => ⟨S_, .f32⟩
  | .hbm, ⟨66, _⟩ => ⟨S64, .f32⟩
  | .hbm, ⟨67, _⟩ => ⟨S64x1x1x1, .f32⟩
  | .hbm, ⟨68, _⟩ => ⟨S_, .f32⟩
  | .hbm, ⟨69, _⟩ => ⟨S64x1x1x1, .f32⟩
  | .hbm, ⟨70, _⟩ => ⟨S64x1x1x1, .f32⟩
  | .hbm, ⟨71, _⟩ => ⟨S_, .f32⟩
  | .hbm, ⟨72, _⟩ => ⟨S64x1x1x1, .f32⟩
  | .hbm, ⟨73, _⟩ => ⟨S64x1x1x1, .f32⟩
  | .hbm, ⟨74, _⟩ => ⟨S64x1x1x1, .f32⟩
  | .hbm, ⟨75, _⟩ => ⟨S_, .f32⟩
  | .hbm, ⟨76, _⟩ => ⟨S64x1x1x1, .f32⟩
  | .hbm, ⟨77, _⟩ => ⟨S64x1x1x1, .f32⟩
  | .hbm, ⟨78, _⟩ => ⟨S64x128x32x32, .f32⟩
  | .hbm, ⟨79, _⟩ => ⟨S64x128x32x32, .f32⟩
  | _, _ => ⟨S16x4x128x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_7 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]

class Facts₀ : Prop where
  shapeCasts_S16x4x128x32x32_S64x128x1024 : S16x4x128x32x32.ShapeCasts S64x128x1024
  transposes_S64x128x1024_S64x1024x128_0_2_1 : S64x128x1024.Transposes [0, 2, 1] S64x1024x128
  bcast_S1x1x128_S64x1024x128_0_1_2 : S1x1x128.BroadcastsInDim S64x1024x128 (![0, 1, 2] : Fin 3 → Fin S64x1024x128.rank)
  bcast_S32_S1x1x32_2 : S32.BroadcastsInDim S1x1x32 (![2] : Fin 1 → Fin S1x1x32.rank)
  bcast_S1x1x32_S64x1024x32_0_1_2 : S1x1x32.BroadcastsInDim S64x1024x32 (![0, 1, 2] : Fin 3 → Fin S64x1024x32.rank)
  reducesTo_S64x1024x32_S64x1024_d2 : S64x1024x32.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x32_0_1_2 : S64x1024x1.BroadcastsInDim S64x1024x32 (![0, 1, 2] : Fin 3 → Fin S64x1024x32.rank)
  bcast_S_S64x1024x1024 : S_.BroadcastsInDim S64x1024x1024 (![] : Fin 0 → Fin S64x1024x1024.rank)
  reducesTo_S64x1024x1024_S64x1024_d2 : S64x1024x1024.ReducesTo [2] S64x1024
  bcast_S_S64x1024 : S_.BroadcastsInDim S64x1024 (![] : Fin 0 → Fin S64x1024.rank)
  bcast_S64x1024x1_S64x1024x1024_0_1_2 : S64x1024x1.BroadcastsInDim S64x1024x1024 (![0, 1, 2] : Fin 3 → Fin S64x1024x1024.rank)
  transposes_S64x1024x128_S64x128x1024_0_2_1 : S64x1024x128.Transposes [0, 2, 1] S64x128x1024
  shapeCasts_S64x128x1024_S64x128x32x32 : S64x128x1024.ShapeCasts S64x128x32x32
  reducesTo_S64x128x32x32_S64_d1_2_3 : S64x128x32x32.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x128x32x32_0_1_2_3 : S64x1x1x1.BroadcastsInDim S64x128x32x32 (![0, 1, 2, 3] : Fin 4 → Fin S64x128x32x32.rank)
  dot_S64x1024x128_S32x128_S64x1024x32_2_1_01_0_n_n_wf : DotDims.WF S64x1024x128 S32x128 S64x1024x32 [2] [1] [0, 1] [0] [] []
  dot_S64x1024x32_S64x1024x32_S64x1024x1024_2_2_1_1_0_0_wf : DotDims.WF S64x1024x32 S64x1024x32 S64x1024x1024 [2] [2] [1] [1] [0] [0]
  dot_S64x1024x1024_S64x1024x128_S64x1024x128_2_1_1_2_0_0_wf : DotDims.WF S64x1024x1024 S64x1024x128 S64x1024x128 [2] [1] [1] [2] [0] [0]

variable [Facts₀]

def dot_S64x1024x128_S32x128_S64x1024x32_2_1_01_0_n_n : DotDims S64x1024x128 S32x128 S64x1024x32 where
  lhsContracting := [2]
  rhsContracting := [1]
  lhsNonContracting := [0, 1]
  rhsNonContracting := [0]
  lhsBatch := []
  rhsBatch := []
  wf := dot_S64x1024x128_S32x128_S64x1024x32_2_1_01_0_n_n_wf
def dot_S64x1024x32_S64x1024x32_S64x1024x1024_2_2_1_1_0_0 : DotDims S64x1024x32 S64x1024x32 S64x1024x1024 where
  lhsContracting := [2]
  rhsContracting := [2]
  lhsNonContracting := [1]
  rhsNonContracting := [1]
  lhsBatch := [0]
  rhsBatch := [0]
  wf := dot_S64x1024x32_S64x1024x32_S64x1024x1024_2_2_1_1_0_0_wf
def dot_S64x1024x1024_S64x1024x128_S64x1024x128_2_1_1_2_0_0 : DotDims S64x1024x1024 S64x1024x128 S64x1024x128 where
  lhsContracting := [2]
  rhsContracting := [1]
  lhsNonContracting := [1]
  rhsNonContracting := [2]
  lhsBatch := [0]
  rhsBatch := [0]
  wf := dot_S64x1024x1024_S64x1024x128_S64x1024x128_2_1_1_2_0_0_wf

class Facts : Prop extends Facts₀ where

variable [Facts]
-- ==== Proof.RealCalc.lean ====
/-
  Real numbers among the extended reals, and the one analytic fact of this certificate.

  The extended reals add and multiply commutatively and associatively, so sums may be regrouped freely; what
  fails at the infinities is cancellation.  A softmax taken after subtracting the row's maximum equals the
  plain softmax  exp xₖ / ∑ⱼ exp xⱼ  only because the maximum is a finite number: then
      exp (xₖ − M) / ∑ⱼ exp (xⱼ − M) = (exp xₖ · e^{−M}) / (e^{−M} · ∑ⱼ exp xⱼ),
  and the common positive factor cancels.  This file has the closure of "is a real number" under the
  operations met on the way to the logits, and that cancellation.
-/
import Idealize.ShloMosaic.PureOps.Ideal
import Mathlib.Data.Finset.Fold

noncomputable section

namespace Cert.Attn

open Idealize.ShloMosaic

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of the reals commutes with a finite sum. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

theorem IsReal.sum {ι : Type*} (t : Finset ι) (f : ι → EReal) (h : ∀ i, IsReal (f i)) : IsReal (∑ i ∈ t, f i) := by
  choose a ha using h
  simp only [ha, coe_sum]
  exact ⟨_, rfl⟩

/-- The square root of a sum of squares of real numbers is a nonnegative real number. -/
theorem sqrt_sumsq_real {ι : Type*} [Fintype ι] (x : ι → EReal) (hx : ∀ i, IsReal (x i)) :
    ∃ r : ℝ, 0 ≤ r ∧ Ideal.sqrt (∑ i, x i * x i) = (r : EReal) := by
  choose a ha using hx
  have e : ∑ i, x i * x i = ((∑ i, a i * a i : ℝ) : EReal) := by
    simp only [ha, ← EReal.coe_mul]; exact coe_sum _ _
  rw [e, Ideal.sqrt_coe, if_neg (not_lt.mpr (Finset.sum_nonneg fun i _ => mul_self_nonneg _))]
  exact ⟨_, Real.sqrt_nonneg _, rfl⟩

/-- A real number divided by the larger of a nonnegative real and a positive real is a real number. -/
theorem div_max_real (x s e : EReal) (hx : IsReal x) (hs : ∃ r : ℝ, 0 ≤ r ∧ s = (r : EReal))
    (he : ∃ r : ℝ, 0 < r ∧ e = (r : EReal)) : IsReal (Ideal.div x (max s e)) := by
  obtain ⟨a, rfl⟩ := hx; obtain ⟨b, _, rfl⟩ := hs; obtain ⟨c, hc, rfl⟩ := he
  have hm : max (b : EReal) (c : EReal) = ((max b c : ℝ) : EReal) := (Monotone.map_max EReal.coe_strictMono.monotone).symm
  rw [hm, Ideal.div_coe (ne_of_gt (lt_of_lt_of_le hc (le_max_right b c)))]
  exact (IsReal.coe a).mul (IsReal.coe _)

/-- The maximum of finitely many real numbers, at least one, folded from −∞, is a real number. -/
theorem fold_max_real {n : ℕ} (x : Fin n → EReal) (hx : ∀ k, IsReal (x k)) (k0 : Fin n) :
    IsReal ((Finset.univ : Finset (Fin n)).fold max ⊥ x) := by
  have htop : (Finset.univ : Finset (Fin n)).fold max ⊥ x ≠ ⊤ := by
    refine ne_of_lt ((Finset.fold_max_lt _).mpr ⟨bot_lt_top, fun k _ => ?_⟩)
    obtain ⟨r, hr⟩ := hx k; rw [hr]; exact EReal.coe_lt_top r
  have hbot : (Finset.univ : Finset (Fin n)).fold max ⊥ x ≠ ⊥ := by
    refine ne_of_gt ((Finset.lt_fold_max _).mpr (Or.inr ⟨k0, Finset.mem_univ _, ?_⟩))
    obtain ⟨r, hr⟩ := hx k0; rw [hr]; exact EReal.bot_lt_coe r
  exact ⟨_, (EReal.coe_toReal htop hbot).symm⟩

/-- Subtracting one finite number from every logit of a row leaves the softmax of the row unchanged. -/
theorem softmax_shift {n : ℕ} (x : Fin n → EReal) (hx : ∀ k, IsReal (x k)) (M : EReal) (hM : IsReal M) (k : Fin n) :
    Ideal.div (Ideal.exp (x k - M)) (∑ j, Ideal.exp (x j - M)) = Ideal.div (Ideal.exp (x k)) (∑ j, Ideal.exp (x j)) := by
  choose a ha using hx
  obtain ⟨μ, rfl⟩ := hM
  have h1 : (0 : ℝ) < ∑ j, Real.exp (a j - μ) := Finset.sum_pos (fun j _ => Real.exp_pos _) ⟨k, Finset.mem_univ k⟩
  have h2 : (0 : ℝ) < ∑ j, Real.exp (a j) := Finset.sum_pos (fun j _ => Real.exp_pos _) ⟨k, Finset.mem_univ k⟩
  simp only [ha, ← EReal.coe_sub, Ideal.exp_coe, coe_sum]
  rw [Ideal.div_coe h1.ne', Ideal.div_coe h2.ne', ← EReal.coe_mul, ← EReal.coe_mul]
  refine congrArg _ ?_
  have h3 : ∑ j, Real.exp (a j - μ) = (∑ j, Real.exp (a j)) / Real.exp μ := by
    rw [Finset.sum_div]; exact Finset.sum_congr rfl fun j _ => Real.exp_sub _ _
  rw [h3, Real.exp_sub]
  have hμ : Real.exp μ ≠ 0 := (Real.exp_pos μ).ne'
  field_simp

end Cert.Attn

end
-- ==== Proof.Spec.lean ====
/-
  What one sample's output is, as a function of the sample's two feature maps f1, f2 (channels × tokens), the two
  positional offsets (one number per channel), the shared projection W (head dimension × channels) and its bias:

    A1 = f1 + tp1,  A2 = f2 + tp2                      (the offset added to every token of a channel)
    q  = W·A1 + b,  k = W·A2 + b                        (head dimension × tokens)
    Q  = q / max(‖q‖, e),  K = k / max(‖k‖, e)          (each token's column normalised; ‖·‖ over the head dimension)
    L[s,t] = τ · ∑_d Q[d,s]·K[d,t]                      (cosine similarities times the temperature)
    P[s,t] = exp L[s,t] / ∑_u exp L[s,u]                (softmax over the keys)
    y[c,s] = ∑_t A2[c,t]·P[s,t] + A2[c,s]               (attention read-out plus the residual)
    out    = y · (κ · sqrt(n / (∑_{c,s} y² + ε)))       (one scale for the whole sample)

  The literals e, τ, κ, n, ε are kept as parameters: both programs carry the same words for them.  The functions are
  stated on the extended reals; that the logits are real numbers when the inputs are is `logits_real`, and with it the
  softmax computed after subtracting the row maximum is the plain one (`softmaxStable_eq`).
-/
import proofs.«128386_j45183055954094_2_alg».proof.Proof.RealCalc
import Idealize.ShloMosaic.Lib.ValueIdx

noncomputable section

namespace Cert.Attn

open Idealize.ShloMosaic

/-- The literals both programs carry, as the extended reals their words denote: the floor under a norm, the
    temperature, the output scale, the element count of a sample, the stabiliser of the final normalisation. -/
abbrev floorLit : EReal := Ideal.ofBits .f32 0x2B8CBCCC#32
abbrev tempLit : EReal := Ideal.ofBits .f32 0x41F00000#32
abbrev scaleLit : EReal := Ideal.ofBits .f32 0x3CB504F3#32
abbrev countLit : EReal := Ideal.ofBits .f32 0x48000000#32
abbrev epsLit : EReal := Ideal.ofBits .f32 0x3727C5AC#32

def shifted (f : Fin 128 → Fin 1024 → EReal) (tp : Fin 128 → EReal) (c : Fin 128) (s : Fin 1024) : EReal :=
  f c s + tp c

def proj (W : Fin 32 → Fin 128 → EReal) (bias : Fin 32 → EReal) (A : Fin 128 → Fin 1024 → EReal)
    (d : Fin 32) (s : Fin 1024) : EReal :=
  (∑ c, W d c * A c s) + bias d

def unitize (e : EReal) (x : Fin 32 → Fin 1024 → EReal) (d : Fin 32) (s : Fin 1024) : EReal :=
  Ideal.div (x d s) (max (Ideal.sqrt (∑ d', x d' s * x d' s)) e)

def logits (τ : EReal) (Q K : Fin 32 → Fin 1024 → EReal) (q k : Fin 1024) : EReal :=
  τ * ∑ d, Q d q * K d k

def softmax (x : Fin 1024 → Fin 1024 → EReal) (q k : Fin 1024) : EReal :=
  Ideal.div (Ideal.exp (x q k)) (∑ k', Ideal.exp (x q k'))

/-- The row maximum as a max-reduction from −∞ computes it (and a further max against −∞). -/
def rowMax (x : Fin 1024 → Fin 1024 → EReal) (q : Fin 1024) : EReal :=
  max ⊥ ((Finset.univ : Finset (Fin 1024)).fold max ⊥ (x q))

/-- The softmax with the row maximum subtracted before the exponential. -/
def softmaxStable (x : Fin 1024 → Fin 1024 → EReal) (q k : Fin 1024) : EReal :=
  Ideal.div (Ideal.exp (x q k - rowMax x q)) (∑ k', Ideal.exp (x q k' - rowMax x q))

def mixed (A : Fin 128 → Fin 1024 → EReal) (P : Fin 1024 → Fin 1024 → EReal) (c : Fin 128) (q : Fin 1024) : EReal :=
  (∑ k, A c k * P q k) + A c q

def rescale (κ n ε : EReal) (y : Fin 128 → Fin 1024 → EReal) (c : Fin 128) (s : Fin 1024) : EReal :=
  y c s * (κ * Ideal.sqrt (Ideal.div n ((∑ c', ∑ s', y c' s' * y c' s') + ε)))

/-- The logits of one sample. -/
def sampleLogits (e τ : EReal) (f1 f2 : Fin 128 → Fin 1024 → EReal) (tp1 tp2 : Fin 128 → EReal)
    (W : Fin 32 → Fin 128 → EReal) (bias : Fin 32 → EReal) : Fin 1024 → Fin 1024 → EReal :=
  logits τ (unitize e (proj W bias (shifted f1 tp1))) (unitize e (proj W bias (shifted f2 tp2)))

/-- One sample's output. -/
def sample (e τ κ n ε : EReal) (f1 f2 : Fin 128 → Fin 1024 → EReal) (tp1 tp2 : Fin 128 → EReal)
    (W : Fin 32 → Fin 128 → EReal) (bias : Fin 32 → EReal) : Fin 128 → Fin 1024 → EReal :=
  rescale κ n ε (mixed (shifted f2 tp2) (softmax (sampleLogits e τ f1 f2 tp1 tp2 W bias)))

/-! ## The whole result, over the argument arrays -/

abbrev SArg : Shape := ⟨5, ![16, 4, 128, 32, 32]⟩
abbrev SFlat : Shape := ⟨3, ![64, 128, 1024]⟩

/-- Sample `b`'s feature map: the five-axis argument [16, 4, 128, 32, 32] read as [samples, channels, tokens]
    (the two leading axes joined into the 64 samples, the two trailing ones into the 1024 tokens). -/
def feat (h : SArg.ShapeCasts SFlat) (x : SArg.Idx → EReal) (b : Fin 64) (c : Fin 128) (s : Fin 1024) : EReal :=
  shapeCast SFlat x h (ValueIdx.ix3 b c s)

/-- A positional offset [1, 1, 128] as one number per channel. -/
def offs (x : (⟨3, ![1, 1, 128]⟩ : Shape).Idx → EReal) (c : Fin 128) : EReal := x (ValueIdx.ix3 (0 : Fin 1) (0 : Fin 1) c)

/-- The projection [32, 128] by its coordinates. -/
def wts (x : (⟨2, ![32, 128]⟩ : Shape).Idx → EReal) (d : Fin 32) (c : Fin 128) : EReal := x (ValueIdx.ix2 d c)

/-- The bias [32] by its coordinate. -/
def bia (x : (⟨1, ![32]⟩ : Shape).Idx → EReal) (d : Fin 32) : EReal := x (ValueIdx.ix1 d)

/-- The result before its last re-laying, as [samples, channels, tokens]: at `j` the output of sample `j 0` at channel
    `j 1` and token `j 2`. -/
def whole (h : SArg.ShapeCasts SFlat) (a0 a1 : SArg.Idx → EReal) (a2 a3 : (⟨3, ![1, 1, 128]⟩ : Shape).Idx → EReal)
    (a4 : (⟨2, ![32, 128]⟩ : Shape).Idx → EReal) (a5 : (⟨1, ![32]⟩ : Shape).Idx → EReal) : SFlat.Idx → EReal := fun j =>
  sample floorLit tempLit scaleLit countLit epsLit (feat h a0 (j 0)) (feat h a1 (j 0)) (offs a2) (offs a3) (wts a4) (bia a5) (j 1) (j 2)

theorem unitize_real (e : EReal) (he : ∃ r : ℝ, 0 < r ∧ e = (r : EReal)) (x : Fin 32 → Fin 1024 → EReal)
    (hx : ∀ d s, IsReal (x d s)) (d : Fin 32) (s : Fin 1024) : IsReal (unitize e x d s) :=
  div_max_real _ _ _ (hx d s) (sqrt_sumsq_real (fun d' => x d' s) fun d' => hx d' s) he

theorem proj_real (W : Fin 32 → Fin 128 → EReal) (bias : Fin 32 → EReal) (f : Fin 128 → Fin 1024 → EReal)
    (tp : Fin 128 → EReal) (hW : ∀ d c, IsReal (W d c)) (hb : ∀ d, IsReal (bias d)) (hf : ∀ c s, IsReal (f c s))
    (ht : ∀ c, IsReal (tp c)) (d : Fin 32) (s : Fin 1024) : IsReal (proj W bias (shifted f tp) d s) :=
  (IsReal.sum _ _ fun c => (hW d c).mul ((hf c s).add (ht c))).add (hb d)

/-- With real inputs, a positive real floor under the norms and a real temperature, every logit is a real number. -/
theorem logits_real (e τ : EReal) (he : ∃ r : ℝ, 0 < r ∧ e = (r : EReal)) (hτ : IsReal τ)
    (f1 f2 : Fin 128 → Fin 1024 → EReal) (tp1 tp2 : Fin 128 → EReal) (W : Fin 32 → Fin 128 → EReal) (bias : Fin 32 → EReal)
    (h1 : ∀ c s, IsReal (f1 c s)) (h2 : ∀ c s, IsReal (f2 c s)) (ht1 : ∀ c, IsReal (tp1 c)) (ht2 : ∀ c, IsReal (tp2 c))
    (hW : ∀ d c, IsReal (W d c)) (hb : ∀ d, IsReal (bias d)) (q k : Fin 1024) :
    IsReal (sampleLogits e τ f1 f2 tp1 tp2 W bias q k) :=
  hτ.mul (IsReal.sum _ _ fun d =>
    (unitize_real e he _ (proj_real W bias f1 tp1 hW hb h1 ht1) d q).mul
      (unitize_real e he _ (proj_real W bias f2 tp2 hW hb h2 ht2) d k))

/-- On real logits the softmax taken after subtracting the row maximum is the plain softmax. -/
theorem softmaxStable_eq (x : Fin 1024 → Fin 1024 → EReal) (hx : ∀ q k, IsReal (x q k)) : softmaxStable x = softmax x := by
  funext q k
  unfold softmaxStable softmax
  refine softmax_shift (x q) (hx q) _ ?_ k
  unfold rowMax
  rw [max_eq_right bot_le]
  exact fold_max_real (x q) (hx q) k

end Cert.Attn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KernelOps.lean ====
/-
  The kernel body's operations read at an index, at the ideal instance.

  The body works on one sample: a 128 × 1024 block (channels × tokens) of each feature map, the two offset columns,
  the 32 × 128 projection and its bias column.  Its non-pointwise steps are three matrix products into a zero
  accumulator, four sums along one axis, and the re-layings around them (a column repeated across the tokens, a row
  repeated down the head dimension, a sum kept as a column or a row, one number repeated over the whole block).
  Each is read here at explicit coordinates; the stages built from them are then read as the specification's
  functions (Spec.lean).
-/
import proofs.«128386_j45183055954094_2_alg».proof.Proof.Gen.KernelIdeal.Skeleton
import proofs.«128386_j45183055954094_2_alg».proof.Proof.Spec
import proofs.«128386_j45183055954094_2_alg».proof.Proof.LibColumnBroadcast
import proofs.«128386_j45183055954094_2_alg».proof.Proof.LibKeepdimsColumn
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.Attn Cert.LibKeepdims
open Cert.KernelIdeal.Facts₀

variable [Cert.KernelIdeal.Facts]

theorem sqrt_at {s : Shape} {φ : FTy} (a : FVec Ideal s φ) (i : s.Idx) : sqrt a i = Ideal.sqrt (a i) := rfl
theorem exp_at {s : Shape} {φ : FTy} (a : FVec Ideal s φ) (i : s.Idx) : exp a i = Ideal.exp (a i) := rfl

/-! ## A matrix product into the zero accumulator, as a sum over the contracted axis -/

/-- Given what the dimension record's index maps send an output index and a contraction coordinate to. -/
theorem matmul_zero_sum {sl sr so : Shape} {φ₁ φ₂ : FTy} (D : DotDims sl sr so) (K : Nat) (hr : D.contr.rank = 1)
    (hs : D.contr.size ⟨0, by omega⟩ = K) (prec : Option ContractPrecision) (lhs : FVec Ideal sl φ₁) (rhs : FVec Ideal sr φ₂)
    (j : so.Idx) (Lx : Fin K → sl.Idx) (Rx : Fin K → sr.Idx)
    (hl : ∀ k : Fin K, D.lhsIdx j ((contrEquiv1 D K hr hs).symm k) = Lx k)
    (hr' : ∀ k : Fin K, D.rhsIdx j ((contrEquiv1 D K hr hs).symm k) = Rx k) :
    FloatOps.matmul D prec lhs rhs (constant so .f32 0x00000000#32) j = ∑ k : Fin K, lhs (Lx k) * rhs (Rx k) := by
  rw [Ideal.matmul_constant_zero_apply, ← Equiv.sum_comp (contrEquiv1 D K hr hs).symm]
  exact Finset.sum_congr rfl fun k _ => by rw [hl k, hr' k]

/-! The dimension records' index maps, coordinate by coordinate. -/

theorem dW_l0 (j : S32x1024.Idx) (q : dot_S32x128_S128x1024_S32x1024_1_0_0_1_n_n.contr.Idx) : (dot_S32x128_S128x1024_S32x1024_1_0_0_1_n_n.lhsIdx j q 0).val = (j 0).val := by
  unfold DotDims.lhsIdx
  rw [dif_neg (show ¬(0 : Fin S32x128.rank) ∈ dot_S32x128_S128x1024_S32x1024_1_0_0_1_n_n.lhsBatch by decide), dif_pos (show (0 : Fin S32x128.rank) ∈ dot_S32x128_S128x1024_S32x1024_1_0_0_1_n_n.lhsNonContracting by decide)]
  rfl
theorem dW_l1 (j : S32x1024.Idx) (q : dot_S32x128_S128x1024_S32x1024_1_0_0_1_n_n.contr.Idx) : (dot_S32x128_S128x1024_S32x1024_1_0_0_1_n_n.lhsIdx j q 1).val = (q ⟨0, by decide⟩).val :=
  dot_S32x128_S128x1024_S32x1024_1_0_0_1_n_n.lhsIdx_val_of_single rfl j q
theorem dW_r0 (j : S32x1024.Idx) (q : dot_S32x128_S128x1024_S32x1024_1_0_0_1_n_n.contr.Idx) : (dot_S32x128_S128x1024_S32x1024_1_0_0_1_n_n.rhsIdx j q 0).val = (q ⟨0, by decide⟩).val :=
  dot_S32x128_S128x1024_S32x1024_1_0_0_1_n_n.rhsIdx_val_of_single rfl j q
theorem dW_r1 (j : S32x1024.Idx) (q : dot_S32x128_S128x1024_S32x1024_1_0_0_1_n_n.contr.Idx) : (dot_S32x128_S128x1024_S32x1024_1_0_0_1_n_n.rhsIdx j q 1).val = (j 1).val := by
  unfold DotDims.rhsIdx
  rw [dif_neg (show ¬(1 : Fin S128x1024.rank) ∈ dot_S32x128_S128x1024_S32x1024_1_0_0_1_n_n.rhsBatch by decide), dif_pos (show (1 : Fin S128x1024.rank) ∈ dot_S32x128_S128x1024_S32x1024_1_0_0_1_n_n.rhsNonContracting by decide)]
  rfl
theorem dQK_l0 (j : S1024x1024.Idx) (q : dot_S32x1024_S32x1024_S1024x1024_0_0_1_1_n_n.contr.Idx) : (dot_S32x1024_S32x1024_S1024x1024_0_0_1_1_n_n.lhsIdx j q 0).val = (q ⟨0, by decide⟩).val :=
  dot_S32x1024_S32x1024_S1024x1024_0_0_1_1_n_n.lhsIdx_val_of_single rfl j q
theorem dQK_l1 (j : S1024x1024.Idx) (q : dot_S32x1024_S32x1024_S1024x1024_0_0_1_1_n_n.contr.Idx) : (dot_S32x1024_S32x1024_S1024x1024_0_0_1_1_n_n.lhsIdx j q 1).val = (j 0).val := by
  unfold DotDims.lhsIdx
  rw [dif_neg (show ¬(1 : Fin S32x1024.rank) ∈ dot_S32x1024_S32x1024_S1024x1024_0_0_1_1_n_n.lhsBatch by decide), dif_pos (show (1 : Fin S32x1024.rank) ∈ dot_S32x1024_S32x1024_S1024x1024_0_0_1_1_n_n.lhsNonContracting by decide)]
  rfl
theorem dQK_r0 (j : S1024x1024.Idx) (q : dot_S32x1024_S32x1024_S1024x1024_0_0_1_1_n_n.contr.Idx) : (dot_S32x1024_S32x1024_S1024x1024_0_0_1_1_n_n.rhsIdx j q 0).val = (q ⟨0, by decide⟩).val :=
  dot_S32x1024_S32x1024_S1024x1024_0_0_1_1_n_n.rhsIdx_val_of_single rfl j q
theorem dQK_r1 (j : S1024x1024.Idx) (q : dot_S32x1024_S32x1024_S1024x1024_0_0_1_1_n_n.contr.Idx) : (dot_S32x1024_S32x1024_S1024x1024_0_0_1_1_n_n.rhsIdx j q 1).val = (j 1).val := by
  unfold DotDims.rhsIdx
  rw [dif_neg (show ¬(1 : Fin S32x1024.rank) ∈ dot_S32x1024_S32x1024_S1024x1024_0_0_1_1_n_n.rhsBatch by decide), dif_pos (show (1 : Fin S32x1024.rank) ∈ dot_S32x1024_S32x1024_S1024x1024_0_0_1_1_n_n.rhsNonContracting by decide)]
  rfl
theorem dAP_l0 (j : S128x1024.Idx) (q : dot_S128x1024_S1024x1024_S128x1024_1_1_0_0_n_n.contr.Idx) : (dot_S128x1024_S1024x1024_S128x1024_1_1_0_0_n_n.lhsIdx j q 0).val = (j 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem dAP_l1 (j : S128x1024.Idx) (q : dot_S128x1024_S1024x1024_S128x1024_1_1_0_0_n_n.contr.Idx) : (dot_S128x1024_S1024x1024_S128x1024_1_1_0_0_n_n.lhsIdx j q 1).val = (q ⟨0, by decide⟩).val :=
  dot_S128x1024_S1024x1024_S128x1024_1_1_0_0_n_n.lhsIdx_val_of_single rfl j q
theorem dAP_r0 (j : S128x1024.Idx) (q : dot_S128x1024_S1024x1024_S128x1024_1_1_0_0_n_n.contr.Idx) : (dot_S128x1024_S1024x1024_S128x1024_1_1_0_0_n_n.rhsIdx j q 0).val = (j 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem dAP_r1 (j : S128x1024.Idx) (q : dot_S128x1024_S1024x1024_S128x1024_1_1_0_0_n_n.contr.Idx) : (dot_S128x1024_S1024x1024_S128x1024_1_1_0_0_n_n.rhsIdx j q 1).val = (q ⟨0, by decide⟩).val :=
  dot_S128x1024_S1024x1024_S128x1024_1_1_0_0_n_n.rhsIdx_val_of_single rfl j q

/-- projection × features: rows of the first against columns of the second. -/
theorem dotW_at {φ₁ φ₂ : FTy} (L : FVec Ideal S32x128 φ₁) (R : FVec Ideal S128x1024 φ₂) (d : Fin 32) (s : Fin 1024) :
    matmul dot_S32x128_S128x1024_S32x1024_1_0_0_1_n_n none L R (constant S32x1024 .f32 0x00000000#32) (ix2 d s)
      = ∑ k : Fin 128, L (ix2 d k) * R (ix2 k s) := by
  simp only [matmul]
  refine matmul_zero_sum dot_S32x128_S128x1024_S32x1024_1_0_0_1_n_n 128 rfl rfl none L R _ (fun k => ix2 d k) (fun k => ix2 k s) (fun k => ?_) (fun k => ?_)
  · have hk := contrEquiv1_symm_val dot_S32x128_S128x1024_S32x1024_1_0_0_1_n_n 128 rfl rfl k
    funext a; apply Fin.ext
    match a with
    | ⟨0, _⟩ => exact dW_l0 _ _
    | ⟨1, _⟩ => exact (dW_l1 _ _).trans hk
  · have hk := contrEquiv1_symm_val dot_S32x128_S128x1024_S32x1024_1_0_0_1_n_n 128 rfl rfl k
    funext a; apply Fin.ext
    match a with
    | ⟨0, _⟩ => exact (dW_r0 _ _).trans hk
    | ⟨1, _⟩ => exact dW_r1 _ _

/-- queries against keys: both operands contracted along the head dimension (their axis 0). -/
theorem dotQK_at {φ₁ φ₂ : FTy} (L : FVec Ideal S32x1024 φ₁) (R : FVec Ideal S32x1024 φ₂) (q : Fin 1024) (t : Fin 1024) :
    matmul dot_S32x1024_S32x1024_S1024x1024_0_0_1_1_n_n none L R (constant S1024x1024 .f32 0x00000000#32) (ix2 q t)
      = ∑ k : Fin 32, L (ix2 k q) * R (ix2 k t) := by
  simp only [matmul]
  refine matmul_zero_sum dot_S32x1024_S32x1024_S1024x1024_0_0_1_1_n_n 32 rfl rfl none L R _ (fun k => ix2 k q) (fun k => ix2 k t) (fun k => ?_) (fun k => ?_)
  · have hk := contrEquiv1_symm_val dot_S32x1024_S32x1024_S1024x1024_0_0_1_1_n_n 32 rfl rfl k
    funext a; apply Fin.ext
    match a with
    | ⟨0, _⟩ => exact (dQK_l0 _ _).trans hk
    | ⟨1, _⟩ => exact dQK_l1 _ _
  · have hk := contrEquiv1_symm_val dot_S32x1024_S32x1024_S1024x1024_0_0_1_1_n_n 32 rfl rfl k
    funext a; apply Fin.ext
    match a with
    | ⟨0, _⟩ => exact (dQK_r0 _ _).trans hk
    | ⟨1, _⟩ => exact dQK_r1 _ _

/-- values against attention weights: both operands contracted along the token axis (their axis 1). -/
theorem dotAP_at {φ₁ φ₂ : FTy} (L : FVec Ideal S128x1024 φ₁) (R : FVec Ideal S1024x1024 φ₂) (c : Fin 128) (q : Fin 1024) :
    matmul dot_S128x1024_S1024x1024_S128x1024_1_1_0_0_n_n none L R (constant S128x1024 .f32 0x00000000#32) (ix2 c q)
      = ∑ k : Fin 1024, L (ix2 c k) * R (ix2 q k) := by
  simp only [matmul]
  refine matmul_zero_sum dot_S128x1024_S1024x1024_S128x1024_1_1_0_0_n_n 1024 rfl rfl none L R _ (fun k => ix2 c k) (fun k => ix2 q k) (fun k => ?_) (fun k => ?_)
  · have hk := contrEquiv1_symm_val dot_S128x1024_S1024x1024_S128x1024_1_1_0_0_n_n 1024 rfl rfl k
    funext a; apply Fin.ext
    match a with
    | ⟨0, _⟩ => exact dAP_l0 _ _
    | ⟨1, _⟩ => exact (dAP_l1 _ _).trans hk
  · have hk := contrEquiv1_symm_val dot_S128x1024_S1024x1024_S128x1024_1_1_0_0_n_n 1024 rfl rfl k
    funext a; apply Fin.ext
    match a with
    | ⟨0, _⟩ => exact dAP_r0 _ _
    | ⟨1, _⟩ => exact (dAP_r1 _ _).trans hk

/-! ## Sums along one axis -/

/-- A sum down the rows of an [a, b] array, at column `s`. -/
theorem sum_axis0_at {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (s : Fin b) :
    multiReduction .add [0] ⟨1, ![b]⟩ v acc h hφ hacc (ix1 s) = ∑ d : Fin a, v (ix2 d s) := by
  rw [Ideal.multiReduction_add_single]
  refine Finset.sum_congr rfl fun d _ => congrArg v ?_
  funext x; apply Fin.ext
  match x with
  | ⟨0, _⟩ => rfl
  | ⟨1, _⟩ => rfl

/-- A sum along the rows of an [a, b] array, at row `r`. -/
theorem sum_axis1_at {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ v acc h hφ hacc (ix1 r) = ∑ k : Fin b, v (ix2 r k) := by
  rw [Ideal.multiReduction_add_single]
  refine Finset.sum_congr rfl fun d _ => congrArg v ?_
  funext x; apply Fin.ext
  match x with
  | ⟨0, _⟩ => rfl
  | ⟨1, _⟩ => rfl

/-- One number repeated over a whole [a, b] block. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.KernelIdeal.Body

end
-- ==== Proof.KernelBody.lean ====
/-
  The kernel body's stages, each read as the specification's function of the sample's blocks.

  `colnorm`, `lg`, `sm`, `mx`, `rs` name the stretches of the body between its payload boundaries (the floored norm
  of each token's column; the logits; the softmax; the read-out plus residual; the final rescaling); each `…_at` reads
  one at coordinates.  The payloads are these stages composed (by unfolding), so the block the body stores is
  `Cert.Attn.sample` of the loaded blocks: `stored_at`.
-/
import proofs.«128386_j45183055954094_2_alg».proof.Proof.KernelOps

noncomputable section

namespace Cert.KernelIdeal.Body

open Idealize.ShloMosaic Idealize.ShloMosaic.ValueIdx Cert.KernelIdeal Cert.KernelIdeal.Gen Cert.Attn Cert.LibKeepdims

variable [Cert.KernelIdeal.Facts]

/-! ## The body's four sums, at their literal shapes -/

theorem sumHead_at (v : FVec Ideal S32x1024 .f32) (s : Fin 1024) :
    multiReduction .add [0] S1024 v 0x00000000#32 Facts₀.reduces_S32x1024_S1024 (.inl rfl) rfl (ix1 s) = ∑ d : Fin 32, v (ix2 d s) :=
  sum_axis0_at v _ _ _ _ s

theorem sumKeys_at (v : FVec Ideal S1024x1024 .f32) (q : Fin 1024) :
    multiReduction .add [1] S1024 v 0x00000000#32 Facts₀.reduces_S1024x1024_S1024 (.inl rfl) rfl (ix1 q) = ∑ t : Fin 1024, v (ix2 q t) :=
  sum_axis1_at v _ _ _ _ q

theorem sumTokens_at (v : FVec Ideal S128x1024 .f32) (c : Fin 128) :
    multiReduction .add [1] S128 v 0x00000000#32 Facts₀.reduces_S128x1024_S128 (.inl rfl) rfl (ix1 c) = ∑ s : Fin 1024, v (ix2 c s) :=
  sum_axis1_at v _ _ _ _ c

theorem sumChannels_at (v : FVec Ideal S128x1 .f32) (u : Fin 1) :
    multiReduction .add [0] S1 v 0x00000000#32 Facts₀.reduces_S128x1_S1 (.inl rfl) rfl (ix1 u) = ∑ c : Fin 128, v (ix2 c u) :=
  sum_axis0_at v _ _ _ _ u

/-! ## The stages -/

/-- Each token's norm over the head dimension, floored, repeated down the head dimension. -/
def colnorm (x : FVec Ideal S32x1024 .f32) : FVec Ideal S32x1024 .f32 :=
  broadcastTo S32x1024 (maximumf (sqrt (shapeCast S1x1024 (multiReduction .add [0] S1024 (mulf x x) 0x00000000#32 Facts₀.reduces_S32x1024_S1024 (.inl rfl) rfl) Facts₀.shapeCasts_S1024_S1x1024)) (broadcast S1x1024 (Scalar.ofBits .f32 0x2B8CBCCC#32))) Facts₀.broadcasts_S1x1024_S32x1024

theorem colnorm_at (x : FVec Ideal S32x1024 .f32) (d : Fin 32) (s : Fin 1024) :
    colnorm x (ix2 d s) = max (Ideal.sqrt (∑ d' : Fin 32, x (ix2 d' s) * x (ix2 d' s))) floorLit := by
  unfold colnorm
  rw [broadcastTo_1b_ab_apply, maximumf_apply, sqrt_at, shapeCast_a_1a_apply, sumHead_at]
  rfl

/-- A column-normalised array: each entry over its token's floored norm. -/
theorem unit_fn (x : FVec Ideal S32x1024 .f32) (X : Fin 32 → Fin 1024 → EReal) (hx : (fun d s => x (ix2 d s)) = X) :
    (fun d s => divf x (colnorm x) (ix2 d s)) = unitize floorLit X := by
  subst hx
  funext d s
  rw [divf_apply, colnorm_at]
  rfl

/-- The logits: the temperature times queries against keys. -/
def lg (Q K : FVec Ideal S32x1024 .f32) : FVec Ideal S1024x1024 .f32 :=
  mulf (broadcast S1024x1024 (Scalar.ofBits .f32 0x41F00000#32)) (matmul dot_S32x1024_S32x1024_S1024x1024_0_0_1_1_n_n none (truncf .bf16 Q Facts₀.bitsLt_bf16_f32) (truncf .bf16 K Facts₀.bitsLt_bf16_f32) (constant S1024x1024 .f32 0x00000000#32))

theorem lg_at (Q K : FVec Ideal S32x1024 .f32) (q t : Fin 1024) :
    lg Q K (ix2 q t) = logits tempLit (fun d s => Q (ix2 d s)) (fun d s => K (ix2 d s)) q t := by
  unfold lg
  rw [mulf_apply, dotQK_at]
  rfl

/-- The softmax over the keys, without a maximum subtracted. -/
def sm (x : FVec Ideal S1024x1024 .f32) : FVec Ideal S1024x1024 .f32 :=
  divf (exp x) (broadcastTo S1024x1024 (shapeCast S1024x1 (multiReduction .add [1] S1024 (exp x) 0x00000000#32 Facts₀.reduces_S1024x1024_S1024 (.inl rfl) rfl) Facts₀.shapeCasts_S1024_S1024x1) Facts₀.broadcasts_S1024x1_S1024x1024)

theorem sm_at (x : FVec Ideal S1024x1024 .f32) (q t : Fin 1024) :
    sm x (ix2 q t) = softmax (fun q t => x (ix2 q t)) q t := by
  unfold sm
  rw [divf_apply, broadcastTo_a1_ab_apply, shapeCast_a_a1_apply, sumKeys_at]
  rfl

/-- The read-out plus the residual. -/
def mx (A : FVec Ideal S128x1024 .bf16) (A' : FVec Ideal S128x1024 .f32) (P : FVec Ideal S1024x1024 .f32) : FVec Ideal S128x1024 .f32 :=
  addf (matmul dot_S128x1024_S1024x1024_S128x1024_1_1_0_0_n_n none A (truncf .bf16 P Facts₀.bitsLt_bf16_f32) (constant S128x1024 .f32 0x00000000#32)) A'

theorem mx_at (A : FVec Ideal S128x1024 .bf16) (A' : FVec Ideal S128x1024 .f32) (P : FVec Ideal S1024x1024 .f32) (c : Fin 128) (q : Fin 1024) :
    mx A A' P (ix2 c q) = (∑ t : Fin 1024, A (ix2 c t) * P (ix2 q t)) + A' (ix2 c q) := by
  unfold mx
  rw [addf_apply, dotAP_at]
  rfl

/-- The final rescaling by one number per sample. -/
def rs (y : FVec Ideal S128x1024 .f32) : FVec Ideal S128x1024 .f32 :=
  mulf y (broadcastTo S128x1024 (mulf (broadcast S1x1 (Scalar.ofBits .f32 0x3CB504F3#32)) (sqrt (divf (broadcast S1x1 (Scalar.ofBits .f32 0x48000000#32)) (addf (shapeCast S1x1 (multiReduction .add [0] S1 (shapeCast S128x1 (multiReduction .add [1] S128 (mulf y y) 0x00000000#32 Facts₀.reduces_S128x1024_S128 (.inl rfl) rfl) Facts₀.shapeCasts_S128_S128x1) 0x00000000#32 Facts₀.reduces_S128x1_S1 (.inl rfl) rfl) Facts₀.shapeCasts_S1_S1x1) (broadcast S1x1 (Scalar.ofBits .f32 0x3727C5AC#32)))))) Facts₀.broadcasts_S1x1_S128x1024)

theorem rs_at (y : FVec Ideal S128x1024 .f32) (c : Fin 128) (s : Fin 1024) :
    rs y (ix2 c s) = rescale scaleLit countLit epsLit (fun c s => y (ix2 c s)) c s := by
  unfold rs
  rw [mulf_apply, broadcastTo_11_ab_apply, mulf_apply, sqrt_at, divf_apply, addf_apply, shapeCast_a_1a_apply, sumChannels_at]
  unfold rescale
  refine congrArg (y (ix2 c s) * ·) (congrArg (_ * ·) (congrArg Ideal.sqrt (congrArg (Ideal.div _) (congrArg (· + _) ?_))))
  refine Finset.sum_congr rfl fun c' _ => ?_
  rw [shapeCast_a_a1_apply, sumTokens_at]
  rfl

/-! ## The payloads are the stages composed -/

theorem pay8_eq (v2 : Vec Ideal S1x128x1024 .f32) (v6 : Vec Ideal S128x1 .f32) (v14 : Vec Ideal S32x128 .f32) (v16 : Vec Ideal S32x1 .f32) :
    k0_pay8 v2 v6 v14 v16 = colnorm (k0_pay6 v2 v6 v14 v16) := rfl

theorem pay7_eq (v0 : Vec Ideal S1x128x1024 .f32) (v4 : Vec Ideal S128x1 .f32) (v14 : Vec Ideal S32x128 .f32) (v16 : Vec Ideal S32x1 .f32) :
    k0_pay7 v0 v4 v14 v16 = divf (k0_pay6 v0 v4 v14 v16) (colnorm (k0_pay6 v0 v4 v14 v16)) := rfl

theorem pay1_eq (v11 : FVec Ideal S128x1024 .f32) (v13 : FVec Ideal S128x1024 .bf16) (v23 v35 v38 : FVec Ideal S32x1024 .f32) :
    k0_pay1 v11 v13 v23 v35 v38 = shapeCast S1x128x1024 (rs (mx v13 v11 (sm (lg v35 (divf v23 v38))))) Facts₀.shapeCasts_S128x1024_S1x128x1024 := rfl

/-! ## The payloads read as the specification -/

section
variable (x0 x1 : Vec Ideal S1x128x1024 .f32) (x2 x3 : Vec Ideal S128x1 .f32) (x4 : Vec Ideal S32x128 .f32) (x5 : Vec Ideal S32x1 .f32)

/-- A feature block plus its offset column. -/
theorem shifted_fn (v : Vec Ideal S1x128x1024 .f32) (w : Vec Ideal S128x1 .f32) :
    (fun c s => k0_pay2 v w (ix2 c s)) = shifted (fun c s => v (ix3 (0 : Fin 1) c s)) (fun c => w (ix2 c (0 : Fin 1))) := by
  funext c s
  unfold k0_pay2
  rw [addf_apply, shapeCast_1ab_ab_apply, broadcastTo_a1_ab_apply, shapeCast_self]
  rfl

/-- The projection of a shifted block. -/
theorem proj_fn (v : Vec Ideal S1x128x1024 .f32) (w : Vec Ideal S128x1 .f32) :
    (fun d s => k0_pay6 v w x4 x5 (ix2 d s))
      = proj (fun d c => x4 (ix2 d c)) (fun d => x5 (ix2 d (0 : Fin 1))) (shifted (fun c s => v (ix3 (0 : Fin 1) c s)) (fun c => w (ix2 c (0 : Fin 1)))) := by
  funext d s
  unfold k0_pay6
  rw [addf_apply, dotW_at, broadcastTo_a1_ab_apply]
  unfold proj
  refine congrArg₂ (· + ·) (Finset.sum_congr rfl fun c _ => ?_) ?_
  · exact congrArg (x4 (ix2 d c) * ·) (congrFun (congrFun (shifted_fn v w) c) s)
  · unfold k0_pay5; exact congrFun (shapeCast_self _ _) _

end

/-- THE BLOCK THE BODY STORES, at coordinates: `sample` of the six loaded blocks. -/
theorem stored_at (x0 x1 : Vec Ideal S1x128x1024 .f32) (x2 x3 : Vec Ideal S128x1 .f32) (x4 : Vec Ideal S32x128 .f32) (x5 : Vec Ideal S32x1 .f32)
    (u : Fin 1) (c : Fin 128) (s : Fin 1024) :
    k0_pay1 (k0_pay2 x1 x3) (k0_pay3 x1 x3) (k0_pay6 x1 x3 x4 x5) (k0_pay7 x0 x2 x4 x5) (k0_pay8 x1 x3 x4 x5) (ix3 u c s)
      = sample floorLit tempLit scaleLit countLit epsLit (fun c s => x0 (ix3 (0 : Fin 1) c s)) (fun c s => x1 (ix3 (0 : Fin 1) c s))
          (fun c => x2 (ix2 c (0 : Fin 1))) (fun c => x3 (ix2 c (0 : Fin 1))) (fun d c => x4 (ix2 d c)) (fun d => x5 (ix2 d (0 : Fin 1))) c s := by
  rw [pay1_eq, shapeCast_ab_1ab_apply, rs_at]
  unfold sample
  refine congrFun (congrFun (congrArg (rescale scaleLit countLit epsLit) ?_) c) s
  funext c q
  rw [mx_at]
  unfold mixed
  have hA := shifted_fn x1 x3
  have hP : (fun q t => sm (lg (k0_pay7 x0 x2 x4 x5) (divf (k0_pay6 x1 x3 x4 x5) (k0_pay8 x1 x3 x4 x5))) (ix2 q t))
      = softmax (sampleLogits floorLit tempLit (fun c s => x0 (ix3 (0 : Fin 1) c s)) (fun c s => x1 (ix3 (0 : Fin 1) c s))
          (fun c => x2 (ix2 c (0 : Fin 1))) (fun c => x3 (ix2 c (0 : Fin 1))) (fun d c => x4 (ix2 d c)) (fun d => x5 (ix2 d (0 : Fin 1)))) := by
    funext q t
    rw [sm_at]
    refine congrFun (congrFun (congrArg softmax ?_) q) t
    funext q t
    rw [lg_at]
    unfold sampleLogits
    rw [pay7_eq, pay8_eq, unit_fn _ _ (proj_fn x4 x5 x0 x2), unit_fn _ _ (proj_fn x4 x5 x1 x3)]
  refine congrArg₂ (· + ·) (Finset.sum_congr rfl fun t _ => ?_) (congrFun (congrFun hA c) q)
  exact congrArg₂ (· * ·) (congrFun (congrFun hA c) t) (congrFun (congrFun hP q) t)

/-- The same at any index of the block. -/
theorem stored_eq (x0 x1 : Vec Ideal S1x128x1024 .f32) (x2 x3 : Vec Ideal S128x1 .f32) (x4 : Vec Ideal S32x128 .f32) (x5 : Vec Ideal S32x1 .f32)
    (y : S1x128x1024.Idx) :
    k0_pay1 (k0_pay2 x1 x3) (k0_pay3 x1 x3) (k0_pay6 x1 x3 x4 x5) (k0_pay7 x0 x2 x4 x5) (k0_pay8 x1 x3 x4 x5) y
      = sample floorLit tempLit scaleLit countLit epsLit (fun c s => x0 (ix3 (0 : Fin 1) c s)) (fun c s => x1 (ix3 (0 : Fin 1) c s))
          (fun c => x2 (ix2 c (0 : Fin 1))) (fun c => x3 (ix2 c (0 : Fin 1))) (fun d c => x4 (ix2 d c)) (fun d => x5 (ix2 d (0 : Fin 1))) (y 1) (y 2) := by
  have h := stored_at x0 x1 x2 x3 x4 x5 (y 0) (y 1) (y 2)
  have e : y = ix3 (y 0) (y 1) (y 2) := eq_ix3 y
  exact (congrArg (k0_pay1 (k0_pay2 x1 x3) (k0_pay3 x1 x3) (k0_pay6 x1 x3 x4 x5) (k0_pay7 x0 x2 x4 x5) (k0_pay8 x1 x3 x4 x5)) e).trans h

end Cert.KernelIdeal.Body

end
-- ==== Proof.KernelValue.lean ====
/-
  The kernel's result array, of the arguments.

  The region runs the body once per sample `t` (64 grid points); window 6's block at point `t` is rows
  `t` of the [64, 128, 1024] result, windows 0 and 1 the same rows of the two feature arrays, windows 2–5 the
  whole offset columns, projection and bias column.  Before the region the host re-lays the arguments (the feature
  arrays' axes joined, the offsets and the bias turned into columns); after it the result is re-laid as
  [64, 128, 32, 32].  So: each input block is the sample's slice of the arguments (`blk…_at`), what point `t`
  writes back is block `t` of `Cert.Attn.whole` (`flushed_eq`), the 64 blocks tile the array (`cover`), and
  the returned array is `whole` re-laid (`run`).
-/
import proofs.«128386_j45183055954094_2_alg».proof.Proof.Gen.KernelIdeal.Frame
import proofs.«128386_j45183055954094_2_alg».proof.Proof.KernelBody
import Idealize.ShloMosaic.Lib.StableHlo.Run

set_option maxRecDepth 16384

noncomputable section

namespace Cert.KernelIdeal.Value

open Idealize.ShloMosaic Idealize.ShloMosaic.TcCoe Idealize.ShloMosaic.ValueIdx Idealize.SL.Sem Cert.KernelIdeal Cert.KernelIdeal.Gen Cert.Attn
open Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arrays the region finds: the host's re-layings of the arguments -/

theorem V_v0 (c : Dev nD) : (V m c main_v0 : S64x128x1024.Idx → EReal) = shapeCast S64x128x1024 (m ((c : Thread nD τ).loc main_arg0)) Facts₀.shapeCasts_S16x4x128x32x32_S64x128x1024 := by
  show StableHlo.after hostOps0 (fun b => m (c, b)) (Proc.devRef .tc main_v0) = _
  after_results
  rfl

theorem V_v1 (c : Dev nD) : (V m c main_v1 : S64x128x1024.Idx → EReal) = shapeCast S64x128x1024 (m ((c : Thread nD τ).loc main_arg1)) Facts₀.shapeCasts_S16x4x128x32x32_S64x128x1024 := by
  show StableHlo.after hostOps0 (fun b => m (c, b)) (Proc.devRef .tc main_v1) = _
  after_results
  rfl

theorem V_v3 (c : Dev nD) : (V m c main_v3 : S128x1.Idx → EReal) = transpose S128x1 [1, 0] (shapeCast S1x128 (m ((c : Thread nD τ).loc main_arg2)) Facts₀.shapeCasts_S1x1x128_S1x128) Facts₀.transposes_S1x128_S128x1_1_0 := by
  show StableHlo.after hostOps0 (fun b => m (c, b)) (Proc.devRef .tc main_v3) = _
  after_results
  rfl

theorem V_v5 (c : Dev nD) : (V m c main_v5 : S128x1.Idx → EReal) = transpose S128x1 [1, 0] (shapeCast S1x128 (m ((c : Thread nD τ).loc main_arg3)) Facts₀.shapeCasts_S1x1x128_S1x128) Facts₀.transposes_S1x128_S128x1_1_0 := by
  show StableHlo.after hostOps0 (fun b => m (c, b)) (Proc.devRef .tc main_v5) = _
  after_results
  rfl

theorem V_v7 (c : Dev nD) : (V m c main_v7 : S32x1.Idx → EReal) = transpose S32x1 [1, 0] (shapeCast S1x32 (m ((c : Thread nD τ).loc main_arg5)) Facts₀.shapeCasts_S32_S1x32) Facts₀.transposes_S1x32_S32x1_1_0 := by
  show StableHlo.after hostOps0 (fun b => m (c, b)) (Proc.devRef .tc main_v7) = _
  after_results
  rfl

/-- The printed index maps, decided over the 64 points: the sample's row for the three blocked windows, the origin
    for the four whole ones. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_6.index t (0 : Fin 3) = t.val ∧ win0_6.index t (1 : Fin 3) = 0 ∧ win0_6.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem t_lt (t : Fin cfg0.N) : t.val < 64 := Nat.lt_of_lt_of_eq t.isLt N_0

/-- The sample a grid point works on. -/
def smp (t : Fin cfg0.N) : Fin 64 := ⟨t.val, t_lt t⟩

/-! ## The input blocks at a point, of the arguments -/

theorem blk0_at (c : Dev nD) (t : Fin cfg0.N) (cc : Fin 128) (s : Fin 1024) :
    iblk m c 0 t (ix3 (0 : Fin 1) cc s) = feat Facts₀.shapeCasts_S16x4x128x32x32_S64x128x1024 (m ((c : Thread nD τ).loc main_arg0)) (smp t) cc s := by
  obtain ⟨e0, e1, e2, -⟩ := idx_facts t
  show V m c main_v0 (((cfg0.win 0).blk t).view.emb (ix3 (0 : Fin 1) cc s)) = _
  rw [V_v0]
  unfold feat
  refine congrArg _ ?_
  funext a; apply Fin.ext
  match a with
  | ⟨0, _⟩ => show win0_0.index t (0 : Fin 3) * 1 + 1 * 0 = t.val; omega
  | ⟨1, _⟩ => show win0_0.index t (1 : Fin 3) * 128 + 1 * cc.val = cc.val; omega
  | ⟨2, _⟩ => show win0_0.index t (2 : Fin 3) * 1024 + 1 * s.val = s.val; omega

theorem blk1_at (c : Dev nD) (t : Fin cfg0.N) (cc : Fin 128) (s : Fin 1024) :
    iblk m c 1 t (ix3 (0 : Fin 1) cc s) = feat Facts₀.shapeCasts_S16x4x128x32x32_S64x128x1024 (m ((c : Thread nD τ).loc main_arg1)) (smp t) cc s := by
  obtain ⟨-, -, -, e0, e1, e2, -⟩ := idx_facts t
  show V m c main_v1 (((cfg0.win 1).blk t).view.emb (ix3 (0 : Fin 1) cc s)) = _
  rw [V_v1]
  unfold feat
  refine congrArg _ ?_
  funext a; apply Fin.ext
  match a with
  | ⟨0, _⟩ => show win0_1.index t (0 : Fin 3) * 1 + 1 * 0 = t.val; omega
  | ⟨1, _⟩ => show win0_1.index t (1 : Fin 3) * 128 + 1 * cc.val = cc.val; omega
  | ⟨2, _⟩ => show win0_1.index t (2 : Fin 3) * 1024 + 1 * s.val = s.val; omega

theorem blk2_at (c : Dev nD) (t : Fin cfg0.N) (cc : Fin 128) :
    iblk m c 2 t (ix2 cc (0 : Fin 1)) = offs (m ((c : Thread nD τ).loc main_arg2)) cc := by
  obtain ⟨-, -, -, -, -, -, -, -, -, e0, e1, -⟩ := idx_facts t
  show V m c main_v3 (((cfg0.win 2).blk t).view.emb (ix2 cc (0 : Fin 1))) = _
  rw [V_v3]
  have he : ((cfg0.win 2).blk t).view.emb (ix2 cc (0 : Fin 1)) = ix2 cc (0 : Fin 1) := by
    funext a; apply Fin.ext
    match a with
    | ⟨0, _⟩ => show win0_2.index t (0 : Fin 2) * 128 + 1 * cc.val = cc.val; omega
    | ⟨1, _⟩ => show win0_2.index t (1 : Fin 2) * 1 + 1 * 0 = 0; omega
  rw [he, transpose_ix2_apply, shapeCast_1ab_ab_apply]
  rfl

theorem blk3_at (c : Dev nD) (t : Fin cfg0.N) (cc : Fin 128) :
    iblk m c 3 t (ix2 cc (0 : Fin 1)) = offs (m ((c : Thread nD τ).loc main_arg3)) cc := by
  obtain ⟨-, -, -, -, -, -, -, -, -, -, -, e0, e1, -⟩ := idx_facts t
  show V m c main_v5 (((cfg0.win 3).blk t).view.emb (ix2 cc (0 : Fin 1))) = _
  rw [V_v5]
  have he : ((cfg0.win 3).blk t).view.emb (ix2 cc (0 : Fin 1)) = ix2 cc (0 : Fin 1) := by
    funext a; apply Fin.ext
    match a with
    | ⟨0, _⟩ => show win0_3.index t (0 : Fin 2) * 128 + 1 * cc.val = cc.val; omega
    | ⟨1, _⟩ => show win0_3.index t (1 : Fin 2) * 1 + 1 * 0 = 0; omega
  rw [he, transpose_ix2_apply, shapeCast_1ab_ab_apply]
  rfl

theorem blk4_at (c : Dev nD) (t : Fin cfg0.N) (d : Fin 32) (cc : Fin 128) :
    iblk m c 4 t (ix2 d cc) = wts (m ((c : Thread nD τ).loc main_arg4)) d cc := by
  obtain ⟨-, -, -, -, -, -, -, -, -, -, -, -, -, e0, e1, -⟩ := idx_facts t
  show V m c main_arg4 (((cfg0.win 4).blk t).view.emb (ix2 d cc)) = _
  rw [V_main_arg4]
  unfold wts
  refine congrArg _ ?_
  funext a; apply Fin.ext
  match a with
  | ⟨0, _⟩ => show win0_4.index t (0 : Fin 2) * 32 + 1 * d.val = d.val; omega
  | ⟨1, _⟩ => show win0_4.index t (1 : Fin 2) * 128 + 1 * cc.val = cc.val; omega

theorem blk5_at (c : Dev nD) (t : Fin cfg0.N) (d : Fin 32) :
    iblk m c 5 t (ix2 d (0 : Fin 1)) = bia (m ((c : Thread nD τ).loc main_arg5)) d := by
  obtain ⟨-, -, -, -, -, -, -, -, -, -, -, -, -, -, -, e0, e1⟩ := idx_facts t
  show V m c main_v7 (((cfg0.win 5).blk t).view.emb (ix2 d (0 : Fin 1))) = _
  rw [V_v7]
  have he : ((cfg0.win 5).blk t).view.emb (ix2 d (0 : Fin 1)) = ix2 d (0 : Fin 1) := by
    funext a; apply Fin.ext
    match a with
    | ⟨0, _⟩ => show win0_5.index t (0 : Fin 2) * 32 + 1 * d.val = d.val; omega
    | ⟨1, _⟩ => show win0_5.index t (1 : Fin 2) * 1 + 1 * 0 = 0; omega
  rw [he, transpose_ix2_apply, shapeCast_a_1a_apply]
  rfl

/-! ## What a point writes back, the cover, the array -/

/-- The result array before the last re-laying, of the arguments as launched. -/
def G (c : Dev nD) : S64x128x1024.Idx → EReal :=
  whole Facts₀.shapeCasts_S16x4x128x32x32_S64x128x1024 (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- WHAT POINT `t` WRITES BACK is block `t` of `G`. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6]
  unfold out0_6
  rw [View.canon_unit_zero hz3]
  simp only [View.ld_unit_zero (S := S1x128x1024) hz3, View.ld_unit_zero (S := S128x1) hz2, View.ld_unit_zero (S := S32x128) hz2, View.ld_unit_zero (S := S32x1) hz2]
  funext y
  obtain ⟨-, -, -, -, -, -, e0, e1, e2, -⟩ := idx_facts t
  show k0_pay1 (k0_pay2 (iblk m c 1 t) (iblk m c 3 t)) (k0_pay3 (iblk m c 1 t) (iblk m c 3 t))
        (k0_pay6 (iblk m c 1 t) (iblk m c 3 t) (iblk m c 4 t) (iblk m c 5 t))
        (k0_pay7 (iblk m c 0 t) (iblk m c 2 t) (iblk m c 4 t) (iblk m c 5 t))
        (k0_pay8 (iblk m c 1 t) (iblk m c 3 t) (iblk m c 4 t) (iblk m c 5 t)) y = G m c (((cfg0.win 6).blk t).view.emb y)
  refine (Body.stored_eq (iblk m c 0 t) (iblk m c 1 t) (iblk m c 2 t) (iblk m c 3 t) (iblk m c 4 t) (iblk m c 5 t) y).trans ?_
  have h0 : (fun cc s => iblk m c 0 t (ix3 (0 : Fin 1) cc s)) = feat Facts₀.shapeCasts_S16x4x128x32x32_S64x128x1024 (m ((c : Thread nD τ).loc main_arg0)) (smp t) :=
    funext fun cc => funext fun s => blk0_at m c t cc s
  have h1 : (fun cc s => iblk m c 1 t (ix3 (0 : Fin 1) cc s)) = feat Facts₀.shapeCasts_S16x4x128x32x32_S64x128x1024 (m ((c : Thread nD τ).loc main_arg1)) (smp t) :=
    funext fun cc => funext fun s => blk1_at m c t cc s
  have h2 : (fun cc => iblk m c 2 t (ix2 cc (0 : Fin 1))) = offs (m ((c : Thread nD τ).loc main_arg2)) := funext fun cc => blk2_at m c t cc
  have h3 : (fun cc => iblk m c 3 t (ix2 cc (0 : Fin 1))) = offs (m ((c : Thread nD τ).loc main_arg3)) := funext fun cc => blk3_at m c t cc
  have h4 : (fun d cc => iblk m c 4 t (ix2 d cc)) = wts (m ((c : Thread nD τ).loc main_arg4)) := funext fun d => funext fun cc => blk4_at m c t d cc
  have h5 : (fun d => iblk m c 5 t (ix2 d (0 : Fin 1))) = bia (m ((c : Thread nD τ).loc main_arg5)) := funext fun d => blk5_at m c t d
  rw [h0, h1, h2, h3, h4, h5]
  unfold G whole
  have q0 : (((cfg0.win 6).blk t).view.emb y) 0 = smp t := Fin.ext (by
    show win0_6.index t (0 : Fin 3) * 1 + 1 * (y 0).val = t.val
    have : (y 0).val < 1 := (y 0).isLt
    omega)
  have q1 : (((cfg0.win 6).blk t).view.emb y) 1 = y 1 := Fin.ext (by
    show win0_6.index t (1 : Fin 3) * 128 + 1 * (y 1).val = (y 1).val; omega)
  have q2 : (((cfg0.win 6).blk t).view.emb y) 2 = y 2 := Fin.ext (by
    show win0_6.index t (2 : Fin 3) * 1024 + 1 * (y 2).val = (y 2).val; omega)
  rw [q0, q1, q2]

/-- An index of the array is in point `t`'s block iff each coordinate is in the block's range on its axis. -/
theorem mem_blk (t : Fin cfg0.N) (i : S64x128x1024.Idx) :
    i ∈ ((cfg0.win 6).blk t).view.set ↔ ∀ a : Fin 3, win0_6.index t a * S1x128x1024.size a ≤ (i a).val ∧ (i a).val < win0_6.index t a * S1x128x1024.size a + S1x128x1024.size a := by
  show i ∈ ((View.whole main_v8).slice (win0_6.rect t)).set ↔ _
  rw [View.set_slice_whole, Rect.mem_set_unit]
  exact Iff.rfl

/-- Every index of the array is in the block of the point that works on its sample. -/
theorem cover (i : S64x128x1024.Idx) : ∃ t : Fin cfg0.N, (cfg0.win 6).flush t = true ∧ i ∈ ((cfg0.win 6).blk t).view.set := by
  have hi0 : (i 0).val < 64 := (i 0).isLt
  have hi1 : (i 1).val < 128 := (i 1).isLt
  have hi2 : (i 2).val < 1024 := (i 2).isLt
  let t : Fin cfg0.N := ⟨(i 0).val, by rw [show cfg0.N = 64 from N_0]; exact hi0⟩
  refine ⟨t, flush0_6 t, ?_⟩
  obtain ⟨-, -, -, -, -, -, e0, e1, e2, -⟩ := idx_facts t
  have ht : t.val = (i 0).val := rfl
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 128 ≤ (i 1).val ∧ (i 1).val < win0_6.index t (1 : Fin 3) * 128 + 128; omega
  | ⟨2, _⟩ => show win0_6.index t (2 : Fin 3) * 1024 ≤ (i 2).val ∧ (i 2).val < win0_6.index t (2 : Fin 3) * 1024 + 1024; omega

/-- THE ARRAY the region leaves: `G`. -/
theorem final (c : Dev nD) : (dats m 0 c).arrAt 6 cfg0.N = G m c :=
  (dats m 0 c).arrAt_eq_of_cover 6 (G m c) (fun t _ => flushed_eq m c t) cover

/-! ## The returned array and the run -/

/-- After the region the host re-lays the result array as [64, 128, 32, 32]. -/
theorem result_eq (c : Dev nD) :
    Pipeline.afterTail₀ cfgs (dats m) 0 (V0 m) [hostOps1] c main_v9
      = shapeCast S64x128x32x32 (G m c) Facts₀.shapeCasts_S64x128x1024_S64x128x32x32 := by
  unfold Pipeline.afterTail₀
  show StableHlo.after hostOps1 _ (Proc.devRef .tc main_v9) = _
  after_results
  funext i
  show shapeCast S64x128x32x32 (Pipeline.withArrays (cfgs 0).spec c (V0 m c) (fun w => (dats m 0 c).arrAt w (cfgs 0).N) (Proc.devRef .tc main_v8))
      Facts₀.shapeCasts_S64x128x1024_S64x128x32x32 i = _
  refine congrFun (congrArg (fun A => shapeCast S64x128x32x32 A Facts₀.shapeCasts_S64x128x1024_S64x128x32x32) ?_) i
  exact (Pipeline.withArrays_arr spec0 launch0.win.arr_inj c _ _ 6).trans (final m c)

/-- The kernel's run, read: the returned array is `G` re-laid; the arguments are unchanged. -/
theorem run : θ_run defs (onTc (τ := τ) (main (F := Ideal))) ⟨m, fun _ => 0, ρ⟩ fun r => ∀ c : Dev nD,
      r.2.mem ((c.tc : Thread nD τ).loc main_v9) = shapeCast S64x128x32x32 (G m c) Facts₀.shapeCasts_S64x128x1024_S64x128x32x32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.Value

end
-- ==== Proof.LibSumIdx4.lean ====
/-
  A rank-4 index set is the product of its four coordinate ranges, so a sum over it is the fourfold sum over the
  coordinates (the rank-4 companion of the library's `idxEquiv2` / `sum_idx2`).
-/
import Idealize.ShloMosaic.Lib.ValueIdx

open scoped BigOperators

namespace Cert.Lib.SumIdx4

open Idealize.ShloMosaic Idealize.ShloMosaic.ValueIdx

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.Lib.SumIdx4
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.RefValue.lean ====
/-
  The reference, read as the specification.

  The reference keeps tokens-major layouts ([samples, tokens, channels] and [samples, tokens, head dimension]) and
  works on all 64 samples at once; read at an index, each of its stages is the specification's function of the
  sample `i 0` at the index's other coordinates.  Its softmax subtracts the row maximum first (`r45`); on real
  logits that is the plain softmax (Spec.lean `softmaxStable_eq`), which is where the precondition is used.  Its final
  sum of squares runs over the re-laid [64, 128, 32, 32] array at once; regrouped it is the sum over channels and
  tokens (`r51`).
-/
import proofs.«128386_j45183055954094_2_alg».proof.Proof.Gen.ReferenceIdeal.Read
import proofs.«128386_j45183055954094_2_alg».proof.Proof.Spec
import proofs.«128386_j45183055954094_2_alg».proof.Proof.LibSumIdx4
import proofs.«128386_j45183055954094_2_alg».proof.Proof.LibSumRuns
import Idealize.ShloMosaic.PureOps.Reduce

noncomputable section

namespace Cert.ReferenceIdeal.RefValue

open Idealize.ShloMosaic Idealize.ShloMosaic.ValueIdx Cert.ReferenceIdeal Cert.ReferenceIdeal.Read Cert.Attn

/-- Two indices with the same coordinates. -/
macro "idx_eq" : tactic => `(tactic| (funext a; apply Fin.ext; fin_cases a <;> rfl))

variable [Cert.ReferenceIdeal.Facts]

variable (x0 x1 : (⟨S16x4x128x32x32, .f32⟩ : BufTy).Contents (Elt Ideal)) (x2 x3 : (⟨S1x1x128, .f32⟩ : BufTy).Contents (Elt Ideal))
  (x4 : (⟨S32x128, .f32⟩ : BufTy).Contents (Elt Ideal)) (x5 : (⟨S32, .f32⟩ : BufTy).Contents (Elt Ideal))

abbrev hR : SArg.ShapeCasts SFlat := Facts₀.shapeCasts_S16x4x128x32x32_S64x128x1024

theorem ninfW : Ideal.ofBits .f32 0xFF800000#32 = (⊥ : EReal) := by simp [Ideal.ofBits, Ideal.ieee]

/-! ## Shifted features, projections, normalised projections -/

theorem r3 (i : S64x1024x128.Idx) :
    val_main_v3 (F := Ideal) x0 x2 i = shifted (feat hR x0 (i 0)) (offs x2) (i 2) (i 1) := by
  rw [val_main_v3_apply, val_main_v1_apply, val_main_v2_apply]
  unfold val_main_v0 shifted feat offs
  rw [show idx_main_v1 i = ix3 (i 0) (i 2) (i 1) by idx_eq, show idx_main_v2 i = ix3 (0 : Fin 1) (0 : Fin 1) (i 2) by idx_eq]
  rfl

theorem r7 (i : S64x1024x128.Idx) :
    val_main_v7 (F := Ideal) x1 x3 i = shifted (feat hR x1 (i 0)) (offs x3) (i 2) (i 1) := by
  rw [val_main_v7_apply, val_main_v5_apply, val_main_v6_apply]
  unfold val_main_v4 shifted feat offs
  rw [show idx_main_v5 i = ix3 (i 0) (i 2) (i 1) by idx_eq, show idx_main_v6 i = ix3 (0 : Fin 1) (0 : Fin 1) (i 2) by idx_eq]
  rfl

theorem r11 (i : S64x1024x32.Idx) :
    val_main_v11 (F := Ideal) x0 x2 x4 x5 i = proj (wts x4) (bia x5) (shifted (feat hR x0 (i 0)) (offs x2)) (i 2) (i 1) := by
  rw [val_main_v11_apply, val_main_v8_apply, val_main_v10_apply, val_main_v9_apply]
  unfold proj
  refine congrArg₂ (· + ·) (Finset.sum_congr rfl fun k _ => ?_) ?_
  · rw [r3, mul_comm]
    refine congrArg₂ (· * ·) (congrArg x4 (by idx_eq)) rfl
  · exact congrArg x5 (by idx_eq)

theorem r23 (i : S64x1024x32.Idx) :
    val_main_v23 (F := Ideal) x1 x3 x4 x5 i = proj (wts x4) (bia x5) (shifted (feat hR x1 (i 0)) (offs x3)) (i 2) (i 1) := by
  rw [val_main_v23_apply, val_main_v20_apply, val_main_v22_apply, val_main_v21_apply]
  unfold proj
  refine congrArg₂ (· + ·) (Finset.sum_congr rfl fun k _ => ?_) ?_
  · rw [r7, mul_comm]
    refine congrArg₂ (· * ·) (congrArg x4 (by idx_eq)) rfl
  · exact congrArg x5 (by idx_eq)

theorem r19 (i : S64x1024x32.Idx) :
    val_main_v19 (F := Ideal) x0 x2 x4 x5 i
      = unitize floorLit (proj (wts x4) (bia x5) (shifted (feat hR x0 (i 0)) (offs x2))) (i 2) (i 1) := by
  rw [val_main_v19_apply, val_main_v18_apply, val_main_v17_apply, val_main_v15_apply, val_main_v16_apply, val_main_v14_apply,
    val_main_v13_apply, r11]
  unfold unitize
  refine congrArg (Ideal.div _) (congrArg₂ max (congrArg Ideal.sqrt ?_) rfl)
  show Ideal.ofBits .f32 0x00000000#32 + _ = _
  rw [Ideal.ofBits_zero_f32, zero_add]
  refine Finset.sum_congr rfl fun k _ => ?_
  rw [val_main_v12_apply, r11]
  rfl

theorem r31 (i : S64x1024x32.Idx) :
    val_main_v31 (F := Ideal) x1 x3 x4 x5 i
      = unitize floorLit (proj (wts x4) (bia x5) (shifted (feat hR x1 (i 0)) (offs x3))) (i 2) (i 1) := by
  rw [val_main_v31_apply, val_main_v30_apply, val_main_v29_apply, val_main_v27_apply, val_main_v28_apply, val_main_v26_apply,
    val_main_v25_apply, r23]
  unfold unitize
  refine congrArg (Ideal.div _) (congrArg₂ max (congrArg Ideal.sqrt ?_) rfl)
  show Ideal.ofBits .f32 0x00000000#32 + _ = _
  rw [Ideal.ofBits_zero_f32, zero_add]
  refine Finset.sum_congr rfl fun k _ => ?_
  rw [val_main_v24_apply, r23]
  rfl

/-! ## Logits and the softmax -/

/-- The logits of sample `b`. -/
abbrev L (b : Fin 64) : Fin 1024 → Fin 1024 → EReal :=
  sampleLogits floorLit tempLit (feat hR x0 b) (feat hR x1 b) (offs x2) (offs x3) (wts x4) (bia x5)

theorem r34 (i : S64x1024x1024.Idx) :
    val_main_v34 (F := Ideal) x0 x1 x2 x3 x4 x5 i = L x0 x1 x2 x3 x4 x5 (i 0) (i 1) (i 2) := by
  rw [val_main_v34_apply, val_main_v33_apply, val_main_v32_apply]
  unfold L sampleLogits logits
  refine congrArg₂ (· * ·) rfl (Finset.sum_congr rfl fun k _ => ?_)
  rw [r19, r31]
  rfl

/-- The row maximum the reference subtracts. -/
theorem r37 (j : S64x1024.Idx) :
    val_main_v37 (F := Ideal) x0 x1 x2 x3 x4 x5 j = rowMax (L x0 x1 x2 x3 x4 x5 (j 0)) (j 1) := by
  rw [val_main_v37_apply, val_main_v36_apply]
  unfold rowMax val_main_v35
  rw [Host.reduce_eq_fold_single FloatOps.maximumf _ _ Facts₀.reducesTo_S64x1024x1024_S64x1024_d2 (by decide) Facts₀.h_S_ j]
  show max (Ideal.ofBits .f32 0xFF800000#32) (Finset.fold max (Ideal.ofBits .f32 0xFF800000#32) _ _) = _
  rw [ninfW]
  refine congrArg (max ⊥) (Finset.fold_congr fun k _ => ?_)
  rw [Function.comp_apply, r34]
  rfl

/-- The reference's softmax: the row maximum subtracted before the exponential. -/
theorem r45 (i : S64x1024x1024.Idx) :
    val_main_v45 (F := Ideal) x0 x1 x2 x3 x4 x5 i = softmaxStable (L x0 x1 x2 x3 x4 x5 (i 0)) (i 1) (i 2) := by
  have e41 : ∀ i' : S64x1024x1024.Idx, val_main_v41 (F := Ideal) x0 x1 x2 x3 x4 x5 i'
      = Ideal.exp (L x0 x1 x2 x3 x4 x5 (i' 0) (i' 1) (i' 2) - rowMax (L x0 x1 x2 x3 x4 x5 (i' 0)) (i' 1)) := by
    intro i'
    rw [val_main_v41_apply, val_main_v40_apply, val_main_v39_apply, val_main_v38_apply, r37, r34]
    rfl
  rw [val_main_v45_apply, val_main_v44_apply, val_main_v43_apply, val_main_v42_apply, e41]
  unfold softmaxStable
  refine congrArg (Ideal.div _) ?_
  show Ideal.ofBits .f32 0x00000000#32 + _ = _
  rw [Ideal.ofBits_zero_f32, zero_add]
  refine Finset.sum_congr rfl fun k _ => ?_
  rw [e41]
  rfl

/-! ## The read-out, re-laid -/

/-- Sample `b`'s read-out plus residual (channels × tokens), with a given attention matrix. -/
abbrev Y (P : Fin 64 → Fin 1024 → Fin 1024 → EReal) (b : Fin 64) : Fin 128 → Fin 1024 → EReal :=
  mixed (shifted (feat hR x1 b) (offs x3)) (P b)

theorem r48 (j : S64x128x1024.Idx) :
    val_main_v48 (F := Ideal) x0 x1 x2 x3 x4 x5 j
      = Y x1 x3 (fun b => softmaxStable (L x0 x1 x2 x3 x4 x5 b)) (j 0) (j 1) (j 2) := by
  rw [val_main_v48_apply, val_main_v47_apply, val_main_v46_apply, r7]
  unfold Y mixed
  refine congrArg₂ (· + ·) (Finset.sum_congr rfl fun k _ => ?_) rfl
  rw [r45, r7, mul_comm]
  rfl

/-! ## The final normalisation -/

/-- A host sum over the last three axes of a [64, 128, 32, 32] array, at sample `b`: the initial value plus the sum
    over the channel and the two spatial coordinates. -/
theorem sum123 (x : S64x128x32x32.Idx → EReal) (init : EReal) (b : Fin 64) :
    Ideal.hostReduceAdd Facts₀.reducesTo_S64x128x32x32_S64_d1_2_3 x init (ix1 b)
      = init + ∑ c : Fin 128, ∑ h : Fin 32, ∑ w : Fin 32, x (ix4 b c h w) := by
  unfold Ideal.hostReduceAdd
  refine congrArg (init + ·) ?_
  rw [Finset.sum_filter, Cert.Lib.SumIdx4.sum_idx4]
  have hd : ∀ (a : Fin 64) (c : Fin 128) (h : Fin 32) (w : Fin 32),
      (Facts₀.reducesTo_S64x128x32x32_S64_d1_2_3.drop (ix4 a c h w) = ix1 b) ↔ a = b := by
    intro a c h w
    constructor
    · intro e
      have e' := congrArg (fun j : S64.Idx => (j 0).val) e
      exact Fin.ext ((Shape.ReducesTo.drop_apply_val_of_eq Facts₀.reducesTo_S64x128x32x32_S64_d1_2_3 (ix4 a c h w) 0 0).symm.trans e')
    · rintro rfl
      funext z; apply Fin.ext
      match z with
      | ⟨0, _⟩ => exact Shape.ReducesTo.drop_apply_val_of_eq Facts₀.reducesTo_S64x128x32x32_S64_d1_2_3 (ix4 a c h w) 0 0
  simp only [hd]
  rw [Finset.sum_eq_single b (fun a _ hab => by simp [hab]) (fun hb => absurd (Finset.mem_univ b) hb)]
  simp

/-- The reference's sum of squares of sample `b`, regrouped over channels and tokens. -/
theorem r51 (b : Fin 64) :
    val_main_v51 (F := Ideal) x0 x1 x2 x3 x4 x5 (ix1 b)
      = ∑ c : Fin 128, ∑ s : Fin 1024, Y x1 x3 (fun b => softmaxStable (L x0 x1 x2 x3 x4 x5 b)) b c s
          * Y x1 x3 (fun b => softmaxStable (L x0 x1 x2 x3 x4 x5 b)) b c s := by
  unfold val_main_v51
  simp only [Host.reduceAdd, Ideal.hostReduceAdd_def]
  rw [sum123]
  show Ideal.ofBits .f32 0x00000000#32 + _ = _
  rw [Ideal.ofBits_zero_f32, zero_add]
  refine Finset.sum_congr rfl fun c _ => ?_
  rw [Cert.Lib.SumRuns.sum_runs 32 32 (fun s : Fin (32 * 32) => Y x1 x3 (fun b => softmaxStable (L x0 x1 x2 x3 x4 x5 b)) b c s
          * Y x1 x3 (fun b => softmaxStable (L x0 x1 x2 x3 x4 x5 b)) b c s)]
  refine Finset.sum_congr rfl fun h _ => Finset.sum_congr rfl fun w _ => ?_
  rw [val_main_v50_apply, val_main_v49_apply, r48]
  have hb : b.val < 64 := b.isLt
  have hc : c.val < 128 := c.isLt
  have hh : h.val < 32 := h.isLt
  have hw : w.val < 32 := w.isLt
  have e0 : (idx_main_v49 (ix4 b c h w)) 0 = b := Fin.ext (by
    show (((b.val * 128 + c.val) * 32 + h.val) * 32 + w.val) / 131072 = b.val; omega)
  have e1 : (idx_main_v49 (ix4 b c h w)) 1 = c := Fin.ext (by
    show (((b.val * 128 + c.val) * 32 + h.val) * 32 + w.val) / 1024 % 128 = c.val; omega)
  have e2 : (idx_main_v49 (ix4 b c h w)) 2 = (⟨h.val * 32 + w.val, Cert.Lib.SumRuns.run_lt h w⟩ : Fin (32 * 32)) := Fin.ext (by
    show (((b.val * 128 + c.val) * 32 + h.val) * 32 + w.val) % 1024 = h.val * 32 + w.val; omega)
  rw [e0, e1, e2]
  rfl

/-- The reference's result at an index, through the index `j` of the [64, 128, 1024] layout it re-lays. -/
theorem r61 (i : S64x128x32x32.Idx) :
    val_main_v61 (F := Ideal) x0 x1 x2 x3 x4 x5 i
      = rescale scaleLit countLit epsLit (Y x1 x3 (fun b => softmaxStable (L x0 x1 x2 x3 x4 x5 b)) ((idx_main_v49 i) 0))
          ((idx_main_v49 i) 1) ((idx_main_v49 i) 2) := by
  have h0 : (i 0).val < 64 := (i 0).isLt
  have h1 : (i 1).val < 128 := (i 1).isLt
  have h2 : (i 2).val < 32 := (i 2).isLt
  have h3 : (i 3).val < 32 := (i 3).isLt
  have hb : ((((i 0).val * 128 + (i 1).val) * 32 + (i 2).val) * 32 + (i 3).val) / 131072 < 64 := by omega
  have eb : idx_main_v52 (idx_main_v60 i)
      = ix1 (⟨((((i 0).val * 128 + (i 1).val) * 32 + (i 2).val) * 32 + (i 3).val) / 131072, hb⟩ : Fin 64) := by
    funext a; apply Fin.ext
    match a with
    | ⟨0, _⟩ => show (i 0).val = ((((i 0).val * 128 + (i 1).val) * 32 + (i 2).val) * 32 + (i 3).val) / 131072; omega
  rw [val_main_v61_apply, val_main_v60_apply, val_main_v59_apply, val_main_v58_apply, val_main_v57_apply, val_main_v56_apply,
    val_main_v55_apply, val_main_v54_apply, val_main_v53_apply, val_main_v52_apply, eb, r51, val_main_v49_apply, r48]
  rfl

theorem floor_pos : ∃ r : ℝ, 0 < r ∧ floorLit = (r : EReal) := by
  refine ⟨9223372 * (2 ^ 63)⁻¹, by positivity, ?_⟩
  simp [Ideal.ofBits, Ideal.ieee]

theorem temp_real : IsReal tempLit := by
  refine ⟨15728640 * (2 ^ 19)⁻¹, ?_⟩
  simp [Ideal.ofBits, Ideal.ieee]

/-- THE REFERENCE'S RESULT, on real arguments: `whole` re-laid as [64, 128, 32, 32]. -/
theorem result_eq (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) :
    val_main_v61 (F := Ideal) x0 x1 x2 x3 x4 x5
      = shapeCast S64x128x32x32 (whole hR x0 x1 x2 x3 x4 x5) Facts₀.shapeCasts_S64x128x1024_S64x128x32x32 := by
  funext i
  have b0 : (i 0).val < 64 := (i 0).isLt
  have b1 : (i 1).val < 128 := (i 1).isLt
  have b2 : (i 2).val < 32 := (i 2).isLt
  have b3 : (i 3).val < 32 := (i 3).isLt
  rw [r61, shapeCast_apply (whole hR x0 x1 x2 x3 x4 x5) Facts₀.shapeCasts_S64x128x1024_S64x128x32x32 i (idx_main_v49 i) (by
    rewrite [Shape.rowMajor_val_three, Shape.rowMajor_val_four]
    show (((((i 0).val * 128 + (i 1).val) * 32 + (i 2).val) * 32 + (i 3).val) / 131072 * 128 + ((((i 0).val * 128 + (i 1).val) * 32 + (i 2).val) * 32 + (i 3).val) / 1024 % 128) * 1024 + ((((i 0).val * 128 + (i 1).val) * 32 + (i 2).val) * 32 + (i 3).val) % 1024 = (((i 0).val * 128 + (i 1).val) * 32 + (i 2).val) * 32 + (i 3).val
    omega)]
  have hs : softmaxStable (L x0 x1 x2 x3 x4 x5 ((idx_main_v49 i) 0)) = softmax (L x0 x1 x2 x3 x4 x5 ((idx_main_v49 i) 0)) :=
    softmaxStable_eq _ (logits_real floorLit tempLit floor_pos temp_real _ _ _ _ _ _ (fun c s => h0 _) (fun c s => h1 _) (fun c => h2 _)
      (fun c => h3 _) (fun d c => h4 _) (fun d => h5 _))
  show rescale scaleLit countLit epsLit (mixed (shifted (feat hR x1 ((idx_main_v49 i) 0)) (offs x3)) (softmaxStable (L x0 x1 x2 x3 x4 x5 ((idx_main_v49 i) 0))))
      ((idx_main_v49 i) 1) ((idx_main_v49 i) 2) = _
  rw [hs]
  rfl

end Cert.ReferenceIdeal.RefValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.Finite.lean ====
/-
  The precondition read back: it is the conjunction, over the six argument arrays, of "every element's absolute
  value is below +∞"; so every element of every argument is a real number.
-/
import proofs.«128386_j45183055954094_2_alg».proof.Defs
import proofs.«128386_j45183055954094_2_alg».proof.Proof.Gen.Pre_finite_inputs
import proofs.«128386_j45183055954094_2_alg».proof.Proof.LibFiniteEReal
import proofs.«128386_j45183055954094_2_alg».proof.Proof.RealCalc
import Idealize.ShloMosaic.Lib.ReduceAll
import Idealize.ShloMosaic.Lib.ValueIdx

noncomputable section

namespace Cert.Attn.Finite

open Idealize.ShloMosaic Cert.Pre_finite_inputs

instance : Subsingleton S_.Idx := ⟨fun a b => funext fun d => d.elim0⟩

variable [Cert.Pre_finite_inputs.Facts]

/-- If the finiteness test of the six arrays answers 1, every element of each of them is a real number. -/
theorem reals_of_pre (a0 a1 : FVec Ideal S16x4x128x32x32 .f32) (a2 a3 : FVec Ideal S1x1x128 .f32)
    (a4 : FVec Ideal S32x128 .f32) (a5 : FVec Ideal S32 .f32)
    (h : Cert.Pre_finite_inputs.fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) := by
  have h0 := congrFun h ValueIdx.ix0
  dsimp only [Cert.Pre_finite_inputs.fn, Cert.Pre_finite_inputs.fn_part1] at h0
  have split : ∀ {a b : IVec S_ 1}, andi a b ValueIdx.ix0 = 1#1 → a ValueIdx.ix0 = 1#1 ∧ b ValueIdx.ix0 = 1#1 :=
    fun h => IntOp.andi_eq_one.1 h
  obtain ⟨h01234, e5⟩ := split h0
  obtain ⟨h0123, e4⟩ := split h01234
  obtain ⟨h012, e3⟩ := split h0123
  obtain ⟨h01, e2⟩ := split h012
  obtain ⟨e0, e1⟩ := split h01
  exact ⟨fun i => Cert.Lib.FiniteEReal.real_of_abs_lt _ (Host.reduce_andi_all _ _ _ _ _ e0 i),
    fun i => Cert.Lib.FiniteEReal.real_of_abs_lt _ (Host.reduce_andi_all _ _ _ _ _ e1 i),
    fun i => Cert.Lib.FiniteEReal.real_of_abs_lt _ (Host.reduce_andi_all _ _ _ _ _ e2 i),
    fun i => Cert.Lib.FiniteEReal.real_of_abs_lt _ (Host.reduce_andi_all _ _ _ _ _ e3 i),
    fun i => Cert.Lib.FiniteEReal.real_of_abs_lt _ (Host.reduce_andi_all _ _ _ _ _ e4 i),
    fun i => Cert.Lib.FiniteEReal.real_of_abs_lt _ (Host.reduce_andi_all _ _ _ _ _ e5 i)⟩

end Cert.Attn.Finite

end
-- ==== Proof.lean ====
/-
  A cosine-similarity attention block with a per-sample L2 normalisation, one grid point per sample, against its
  reference.

  For each of the 64 samples both programs add a per-channel offset to two feature maps, project them to a
  32-dimensional head with one shared matrix and bias, normalise each token's projection to unit length (the norm
  floored by a tiny constant), take the temperature-scaled inner products of queries and keys, a softmax over the
  keys, read the second feature map out through it, add that map back, and scale the whole sample by one number
  computed from its sum of squares.

  The two programs differ in layout (channels × tokens in the kernel, tokens × channels in the reference), in the
  formats of the matrix products' operands (a change of format is the identity on the extended reals), in the order
  of the factors and of the summations (the extended reals add and multiply commutatively and associatively), and
  in ONE analytic point: the reference's softmax subtracts the row maximum before the exponential and the kernel's
  does not.  The two softmaxes agree when the logits are real numbers, which they are when the inputs are: this is
  the one use of the precondition (Proof/Spec.lean `softmaxStable_eq`, `logits_real`; Proof/Finite.lean).

  Proof/Spec.lean states the result as one function of the argument arrays; Proof/KernelBody.lean and
  Proof/KernelValue.lean read the kernel's run as that function, Proof/RefValue.lean the reference's.
-/
import proofs.«128386_j45183055954094_2_alg».proof.Defs
import proofs.«128386_j45183055954094_2_alg».proof.Proof.Gen.Kernel
import proofs.«128386_j45183055954094_2_alg».proof.Proof.Gen.Kernel.Skeleton
import proofs.«128386_j45183055954094_2_alg».proof.Proof.Gen.Kernel.Launch
import proofs.«128386_j45183055954094_2_alg».proof.Proof.Gen.Kernel.Points
import proofs.«128386_j45183055954094_2_alg».proof.Proof.Gen.Kernel.Frame
import proofs.«128386_j45183055954094_2_alg».proof.Proof.Gen.KernelIdeal
import proofs.«128386_j45183055954094_2_alg».proof.Proof.Gen.KernelIdeal.Skeleton
import proofs.«128386_j45183055954094_2_alg».proof.Proof.Gen.KernelIdeal.Launch
import proofs.«128386_j45183055954094_2_alg».proof.Proof.Gen.KernelIdeal.Points
import proofs.«128386_j45183055954094_2_alg».proof.Proof.Gen.KernelIdeal.Frame
import proofs.«128386_j45183055954094_2_alg».proof.Proof.Gen.ReferenceIdeal
import proofs.«128386_j45183055954094_2_alg».proof.Proof.Gen.ReferenceIdeal.Run
import proofs.«128386_j45183055954094_2_alg».proof.Proof.Gen.ReferenceIdeal.Read
import proofs.«128386_j45183055954094_2_alg».proof.Proof.Gen.Pre_finite_inputs
import proofs.«128386_j45183055954094_2_alg».proof.Proof.KernelValue
import proofs.«128386_j45183055954094_2_alg».proof.Proof.RefValue
import proofs.«128386_j45183055954094_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the specification's array, re-laid as [64, 128, 32, 32]: the kernel's by its blocks
    (`Cert.KernelIdeal.Value.run`), the reference's stage by stage, its stabilised softmax the plain one because the
    precondition makes every argument element a real number. -/
theorem algebraic : Cert.algebraic_KernelIdeal_ReferenceIdeal := by
  intro m ρ m' ρ' hpre hagree
  refine ⟨fun c => shapeCast Cert.KernelIdeal.S64x128x32x32 (Cert.KernelIdeal.Value.G m c)
    Cert.KernelIdeal.Facts₀.shapeCasts_S64x128x1024_S64x128x32x32, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.Attn.Finite.reals_of_pre _ _ _ _ _ _ (hpre c)
  rw [Cert.ReferenceIdeal.Read.val_main_v61_eq, (hagree c).1, (hagree c).2.1, (hagree c).2.2.1, (hagree c).2.2.2.1,
    (hagree c).2.2.2.2.1, (hagree c).2.2.2.2.2]
  exact Cert.ReferenceIdeal.RefValue.result_eq _ _ _ _ _ _ h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
